-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "inv_temp" .f32 0x40A00000#32 ((67108864 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x1024 : Shape := ⟨3, ![32, 2048, 1024]⟩
abbrev S1x2048x1 : Shape := ⟨3, ![1, 2048, 1]⟩
abbrev S1x1536x1 : Shape := ⟨3, ![1, 1536, 1]⟩
abbrev S32x1536x2048 : Shape := ⟨3, ![32, 1536, 2048]⟩
abbrev S_ : Shape := ⟨0, ![]⟩

class Facts : Prop where
  bcast_S_S32x2048x1024 : S_.BroadcastsInDim S32x2048x1024 (![] : Fin 0 → Fin S32x2048x1024.rank)
  reducesTo_S32x2048x1024_S_d0_1_2 : S32x2048x1024.ReducesTo [0, 1, 2] S_
  h_S_ : 0 < S_.numel
  bcast_S_S1x2048x1 : S_.BroadcastsInDim S1x2048x1 (![] : Fin 0 → Fin S1x2048x1.rank)
  reducesTo_S1x2048x1_S_d0_1_2 : S1x2048x1.ReducesTo [0, 1, 2] S_
  bcast_S_S1x1536x1 : S_.BroadcastsInDim S1x1536x1 (![] : Fin 0 → Fin S1x1536x1.rank)
  reducesTo_S1x1536x1_S_d0_1_2 : S1x1536x1.ReducesTo [0, 1, 2] S_
  bcast_S_S32x1536x2048 : S_.BroadcastsInDim S32x1536x2048 (![] : Fin 0 → Fin S32x1536x2048.rank)
  reducesTo_S32x1536x2048_S_d0_1_2 : S32x1536x2048.ReducesTo [0, 1, 2] S_

variable [Facts]

def fn_part2 {F : FTy → Type} [FloatOps F] (main_v24 : IVec S_ 1) (main_v32 : IVec S32x1536x2048 1) (main_c_12 : IVec S_ 1) : IVec S_ 1 :=
  let main_v33 : IVec S_ 1 := (fun x v => Host.reduce IntOp.andi x v reducesTo_S32x1536x2048_S_d0_1_2 h_S_) main_v32 main_c_12
  let main_v34 : IVec S_ 1 := andi main_v24 main_v33
  main_v34

def fn_part1 {F : FTy → Type} [FloatOps F] (main_arg3 : FVec F S32x1536x2048 .f32) (main_v13 : IVec S_ 1) (main_v16 : IVec S32x1536x2048 1) : IVec S_ 1 :=
  let main_c_5 : IVec S_ 1 := constantI S_ 1 1#1
  let main_v17 : IVec S_ 1 := (fun x v => Host.reduce IntOp.andi x v reducesTo_S32x1536x2048_S_d0_1_2 h_S_) main_v16 main_c_5
  let main_v18 : IVec S_ 1 := andi main_v13 main_v17
  let main_cst_6 : FVec F S_ .f32 := constant S_ .f32 0x2B8CBCCC#32
  let main_v19 : FVec F S32x1536x2048 .f32 := broadcastInDim S32x1536x2048 ![] bcast_S_S32x1536x2048 main_cst_6
  let main_v20 : FVec F S32x1536x2048 .f32 := addf main_arg3 main_v19
  let main_cst_7 : FVec F S_ .f32 := constant S_ .f32 0x00000000#32
  let main_v21 : FVec F S32x1536x2048 .f32 := broadcastInDim S32x1536x2048 ![] bcast_S_S32x1536x2048 main_cst_7
  let main_v22 : IVec S32x1536x2048 1 := cmpf .ogt main_v20 main_v21
  let main_c_8 : IVec S_ 1 := constantI S_ 1 1#1
  let main_v23 : IVec S_ 1 := (fun x v => Host.reduce IntOp.andi x v reducesTo_S32x1536x2048_S_d0_1_2 h_S_) main_v22 main_c_8
  let main_v24 : IVec S_ 1 := andi main_v18 main_v23
  let main_cst_9 : FVec F S_ .f32 := constant S_ .f32 0x2B8CBCCC#32
  let main_v25 : FVec F S32x1536x2048 .f32 := broadcastInDim S32x1536x2048 ![] bcast_S_S32x1536x2048 main_cst_9
  let main_v26 : FVec F S32x1536x2048 .f32 := addf main_arg3 main_v25
  let main_v27 : FVec F S32x1536x2048 .f32 := Host.log main_v26
  let main_v28 : FVec F S32x1536x2048 .f32 := Host.negf main_v27
  let main_cst_10 : FVec F S_ .f32 := constant S_ .f32 0x2B8CBCCC#32
  let main_v29 : FVec F S32x1536x2048 .f32 := broadcastInDim S32x1536x2048 ![] bcast_S_S32x1536x2048 main_cst_10
  let main_v30 : FVec F S32x1536x2048 .f32 := addf main_v28 main_v29
  let main_cst_11 : FVec F S_ .f32 := constant S_ .f32 0x00000000#32
  let main_v31 : FVec F S32x1536x2048 .f32 := broadcastInDim S32x1536x2048 ![] bcast_S_S32x1536x2048 main_cst_11
  let main_v32 : IVec S32x1536x2048 1 := cmpf .ogt main_v30 main_v31
  let main_c_12 : IVec S_ 1 := constantI S_ 1 1#1
  fn_part2 (F := F) main_v24 main_v32 main_c_12

def fn {F : FTy → Type} [FloatOps F] (main_arg0 : FVec F S32x2048x1024 .f32) (main_arg1 : FVec F S1x2048x1 .f32) (main_arg2 : FVec F S1x1536x1 .f32) (main_arg3 : FVec F S32x1536x2048 .f32) : IVec S_ 1 :=
  let main_v0 : FVec F S32x2048x1024 .f32 := Host.absf main_arg0
  let main_cst : FVec F S_ .f32 := constant S_ .f32 0x7F800000#32
  let main_v1 : FVec F S32x2048x1024 .f32 := broadcastInDim S32x2048x1024 ![] bcast_S_S32x2048x1024 main_cst
  let main_v2 : IVec S32x2048x1024 1 := cmpf .olt main_v0 main_v1
  let main_c : IVec S_ 1 := constantI S_ 1 1#1
  let main_v3 : IVec S_ 1 := (fun x v => Host.reduce IntOp.andi x v reducesTo_S32x2048x1024_S_d0_1_2 h_S_) main_v2 main_c
  let main_v4 : FVec F S1x2048x1 .f32 := Host.absf main_arg1
  let main_cst_0 : FVec F S_ .f32 := constant S_ .f32 0x7F800000#32
  let main_v5 : FVec F S1x2048x1 .f32 := broadcastInDim S1x2048x1 ![] bcast_S_S1x2048x1 main_cst_0
  let main_v6 : IVec S1x2048x1 1 := cmpf .olt main_v4 main_v5
  let main_c_1 : IVec S_ 1 := constantI S_ 1 1#1
  let main_v7 : IVec S_ 1 := (fun x v => Host.reduce IntOp.andi x v reducesTo_S1x2048x1_S_d0_1_2 h_S_) main_v6 main_c_1
  let main_v8 : IVec S_ 1 := andi main_v3 main_v7
  let main_v9 : FVec F S1x1536x1 .f32 := Host.absf main_arg2
  let main_cst_2 : FVec F S_ .f32 := constant S_ .f32 0x7F800000#32
  let main_v10 : FVec F S1x1536x1 .f32 := broadcastInDim S1x1536x1 ![] bcast_S_S1x1536x1 main_cst_2
  let main_v11 : IVec S1x1536x1 1 := cmpf .olt main_v9 main_v10
  let main_c_3 : IVec S_ 1 := constantI S_ 1 1#1
  let main_v12 : IVec S_ 1 := (fun x v => Host.reduce IntOp.andi x v reducesTo_S1x1536x1_S_d0_1_2 h_S_) main_v11 main_c_3
  let main_v13 : IVec S_ 1 := andi main_v8 main_v12
  let main_v14 : FVec F S32x1536x2048 .f32 := Host.absf main_arg3
  let main_cst_4 : FVec F S_ .f32 := constant S_ .f32 0x7F800000#32
  let main_v15 : FVec F S32x1536x2048 .f32 := broadcastInDim S32x1536x2048 ![] bcast_S_S32x1536x2048 main_cst_4
  let main_v16 : IVec S32x1536x2048 1 := cmpf .olt main_v14 main_v15
  fn_part1 (F := F) main_arg3 main_v13 main_v16
-- ==== Kernel.lean ====
abbrev S32x2048x1024 : Shape := ⟨3, ![32, 2048, 1024]⟩
abbrev S1x2048x1 : Shape := ⟨3, ![1, 2048, 1]⟩
abbrev S1x1536x1 : Shape := ⟨3, ![1, 1536, 1]⟩
abbrev S32x1536x2048 : Shape := ⟨3, ![32, 1536, 2048]⟩
abbrev S2048 : Shape := ⟨1, ![2048]⟩
abbrev S1x2048 : Shape := ⟨2, ![1, 2048]⟩
abbrev S1536 : Shape := ⟨1, ![1536]⟩
abbrev S1536x1 : Shape := ⟨2, ![1536, 1]⟩
abbrev S32x1536x1024 : Shape := ⟨3, ![32, 1536, 1024]⟩
abbrev S1x512 : Shape := ⟨2, ![1, 512]⟩
abbrev S1x1536x512 : Shape := ⟨3, ![1, 1536, 512]⟩
abbrev S1x512x1024 : Shape := ⟨3, ![1, 512, 1024]⟩
abbrev S1x1536x1024 : Shape := ⟨3, ![1, 1536, 1024]⟩
abbrev S1536x1024 : Shape := ⟨2, ![1536, 1024]⟩
abbrev S1536x512 : Shape := ⟨2, ![1536, 512]⟩
abbrev S512x1024 : Shape := ⟨2, ![512, 1024]⟩

abbrev nBuf : Space → Nat
  | .hbm => 9
  | .vmem => 11
  | .smem => 0
  | _ => 0

abbrev bufTy : (tb : Table) → Fin (tcTables nBuf tb) → BufTy
  | .hbm, ⟨0, _⟩ => ⟨S32x2048x1024, .f32⟩
  | .hbm, ⟨1, _⟩ => ⟨S1x2048x1, .f32⟩
  | .hbm, ⟨2, _⟩ => ⟨S1x1536x1, .f32⟩
  | .hbm, ⟨3, _⟩ => ⟨S32x1536x2048, .f32⟩
  | .hbm, ⟨4, _⟩ => ⟨S2048, .f32⟩
  | .hbm, ⟨5, _⟩ => ⟨S1x2048, .f32⟩
  | .hbm, ⟨6, _⟩ => ⟨S1536, .f32⟩
  | .hbm, ⟨7, _⟩ => ⟨S1536x1, .f32⟩
  | .hbm, ⟨8, _⟩ => ⟨S32x1536x1024, .f32⟩
  | .local _ .vmem, ⟨0, _⟩ => ⟨S1x512, .f32⟩
  | .local _ .vmem, ⟨1, _⟩ => ⟨S1x512, .f32⟩
  | .local _ .vmem, ⟨2, _⟩ => ⟨S1536x1, .f32⟩
  | .local _ .vmem, ⟨3, _⟩ => ⟨S1x1536x512, .f32⟩
  | .local _ .vmem, ⟨4, _⟩ => ⟨S1x1536x512, .f32⟩
  | .local _ .vmem, ⟨5, _⟩ => ⟨S1x512x1024, .f32⟩
  | .local _ .vmem, ⟨6, _⟩ => ⟨S1x512x1024, .f32⟩
  | .local _ .vmem, ⟨7, _⟩ => ⟨S1x1536x1024, .f32⟩
  | .local _ .vmem, ⟨8, _⟩ => ⟨S1536x1, .f32⟩
  | .local _ .vmem, ⟨9, _⟩ => ⟨S1536x1, .f32⟩
  | .local _ .vmem, ⟨10, _⟩ => ⟨S1536x1024, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨2, ![32, 4], ![false, false]⟩

def k0_cond2 (i : grid0.Coords) : BitVec 1 :=
  let arg1 : BitVec 32 := BitVec.ofNat 32 (i 1).val
  let c3_i32 : BitVec 32 := 3#32
  let v58 : BitVec 1 := Scalar.cmpi .eq arg1 c3_i32
  let v59 : BitVec 32 := Scalar.extui v58
  let c0_i32_30 : BitVec 32 := 0#32
  let v60 : BitVec 1 := Scalar.cmpi .ne v59 c0_i32_30
  v60

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1536x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1536x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1536x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

class Facts₀ : Prop where
  shapeCasts_S1x2048x1_S2048 : S1x2048x1.ShapeCasts S2048
  shapeCasts_S2048_S1x2048 : S2048.ShapeCasts S1x2048
  shapeCasts_S1x1536x1_S1536 : S1x1536x1.ShapeCasts S1536
  shapeCasts_S1536_S1536x1 : S1536.ShapeCasts S1536x1
  inb_S1536x1_S1536x1_0_0 : ∀ a, (![0, 0] : Fin 2 → Nat) a + S1536x1.size a ≤ S1536x1.size a
  h_S1536x1 : 0 < S1536x1.numel
  shapeCasts_S1536x1_S1536x1 : S1536x1.ShapeCasts S1536x1
  inb_S1536x1024_S1536x1024_0_0 : ∀ a, (![0, 0] : Fin 2 → Nat) a + S1536x1024.size a ≤ S1536x1024.size a
  h_S1536x1024 : 0 < S1536x1024.numel
  shapeCasts_S1536x1024_S1536x1024 : S1536x1024.ShapeCasts S1536x1024
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1536x1_S1536x512 : S1536x1.Broadcasts S1536x512
  broadcasts_S1x512_S1536x512 : S1x512.Broadcasts S1536x512
  inb_S1x1536x512_S1x1536x512_0_0_0 : ∀ a, (![0, 0, 0] : Fin 3 → Nat) a + S1x1536x512.size a ≤ S1x1536x512.size a
  h_S1x1536x512 : 0 < S1x1536x512.numel
  shapeCasts_S1x1536x512_S1536x512 : S1x1536x512.ShapeCasts S1536x512
  reduces_S1536x512_S1536 : S1536x512.Reduces [1] S1536
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  broadcasts_S1536x1_S1536x1024 : S1536x1.Broadcasts S1536x1024
  inb_S1x1536x1024_S1x1536x1024_0_0_0 : ∀ a, (![0, 0, 0] : Fin 3 → Nat) a + S1x1536x1024.size a ≤ S1x1536x1024.size a
  h_S1x1536x1024 : 0 < S1x1536x1024.numel
  shapeCasts_S1x1536x1024_S1536x1024 : S1x1536x1024.ShapeCasts S1536x1024
  shapeCasts_S1536x1024_S1x1536x1024 : S1536x1024.ShapeCasts S1x1536x1024
  dot_S1536x512_S512x1024_S1536x1024_1_0_0_1_n_n_wf : DotDims.WF S1536x512 S512x1024 S1536x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512.size a ≤ S1x2048.size a
  hwx0_0 : ∀ i : grid0.Coords, EltTy.bits .f32 = 32 ∨ (Rect.block (s := S1x2048) S1x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1536x1.size a ≤ S1536x1.size a
  hwx0_1 : ∀ i : grid0.Coords, EltTy.bits .f32 = 32 ∨ (Rect.block (s := S1536x1) S1536x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1536x512.size a ≤ S32x1536x2048.size a
  hwx0_2 : ∀ i : grid0.Coords, EltTy.bits .f32 = 32 ∨ (Rect.block (s := S32x1536x2048) S1x1536x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x1024.size a ≤ S32x2048x1024.size a
  hwx0_3 : ∀ i : grid0.Coords, EltTy.bits .f32 = 32 ∨ (Rect.block (s := S32x2048x1024) S1x512x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1536x1024.size a ≤ S32x1536x1024.size a
  hwx0_4 : ∀ i : grid0.Coords, EltTy.bits .f32 = 32 ∨ (Rect.block (s := S32x1536x1024) S1x1536x1024.size (cc0_transform_4 i) (hinb0_4 i)).WholeWords (EltTy.packing .f32)

variable [Facts₀]

def dot_S1536x512_S512x1024_S1536x1024_1_0_0_1_n_n : DotDims S1536x512 S512x1024 S1536x1024 where
  lhsContracting := [1]
  rhsContracting := [0]
  lhsNonContracting := [0]
  rhsNonContracting := [1]
  lhsBatch := []
  rhsBatch := []
  wf := dot_S1536x512_S512x1024_S1536x1024_1_0_0_1_n_n_wf

abbrev win0_0 : Pipeline.Window sig grid0 :=
  Pipeline.Window.ofSpec (Memref.whole main_v1) S1x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1536x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1x1536x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S1x512x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x1536x1024.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S32x2048x1024 : Shape := ⟨3, ![32, 2048, 1024]⟩
abbrev S1x2048x1 : Shape := ⟨3, ![1, 2048, 1]⟩
abbrev S1x1536x1 : Shape := ⟨3, ![1, 1536, 1]⟩
abbrev S32x1536x2048 : Shape := ⟨3, ![32, 1536, 2048]⟩
abbrev S1x1536 : Shape := ⟨2, ![1, 1536]⟩
abbrev S1x2048 : Shape := ⟨2, ![1, 2048]⟩
abbrev S1x1x2048 : Shape := ⟨3, ![1, 1, 2048]⟩
abbrev S1x1536x2048 : Shape := ⟨3, ![1, 1536, 2048]⟩
abbrev S_ : Shape := ⟨0, ![]⟩
abbrev S32x1536 : Shape := ⟨2, ![32, 1536]⟩
abbrev S32x1536x1 : Shape := ⟨3, ![32, 1536, 1]⟩
abbrev S32x1536x1024 : Shape := ⟨3, ![32, 1536, 1024]⟩

abbrev nBuf : Space → Nat
  | .hbm => 43
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S1x2048x1, .f32⟩
  | .hbm, ⟨2, _⟩ => ⟨S1x1536x1, .f32⟩
  | .hbm, ⟨3, _⟩ => ⟨S32x1536x2048, .f32⟩
  | .hbm, ⟨4, _⟩ => ⟨S1x1536, .f32⟩
  | .hbm, ⟨5, _⟩ => ⟨S1x1536x1, .f32⟩
  | .hbm, ⟨6, _⟩ => ⟨S1x2048, .f32⟩
  | .hbm, ⟨7, _⟩ => ⟨S1x1x2048, .f32⟩
  | .hbm, ⟨8, _⟩ => ⟨S1x1536x2048, .f32⟩
  | .hbm, ⟨9, _⟩ => ⟨S1x1536x2048, .f32⟩
  | .hbm, ⟨10, _⟩ => ⟨S1x1536x2048, .f32⟩
  | .hbm, ⟨11, _⟩ => ⟨S1x1536x2048, .f32⟩
  | .hbm, ⟨12, _⟩ => ⟨S1x1536x2048, .f32⟩
  | .hbm, ⟨13, _⟩ => ⟨S_, .f32⟩
  | .hbm, ⟨14, _⟩ => ⟨S32x1536x2048, .f32⟩
  | .hbm, ⟨15, _⟩ => ⟨S32x1536x2048, .f32⟩
  | .hbm, ⟨16, _⟩ => ⟨S32x1536x2048, .f32⟩
  | .hbm, ⟨17, _⟩ => ⟨S32x1536x2048, .f32⟩
  | .hbm, ⟨18, _⟩ => ⟨S_, .f32⟩
  | .hbm, ⟨19, _⟩ => ⟨S32x1536x2048, .f32⟩
  | .hbm, ⟨20, _⟩ => ⟨S32x1536x2048, .f32⟩
  | .hbm, ⟨21, _⟩ => ⟨S32x1536x2048, .f32⟩
  | .hbm, ⟨22, _⟩ => ⟨S32x1536x2048, .f32⟩
  | .hbm, ⟨23, _⟩ => ⟨S32x1536x2048, .f32⟩
  | .hbm, ⟨24, _⟩ => ⟨S32x1536x2048, .f32⟩
  | .hbm, ⟨25, _⟩ => ⟨S_, .f32⟩
  | .hbm, ⟨26, _⟩ => ⟨S32x1536x2048, .f32⟩
  | .hbm, ⟨27, _⟩ => ⟨S32x1536x2048, .f32⟩
  | .hbm, ⟨28, _⟩ => ⟨S_, .f32⟩
  | .hbm, ⟨29, _⟩ => ⟨S32x1536, .f32⟩
  | .hbm, ⟨30, _⟩ => ⟨S_, .f32⟩
  | .hbm, ⟨31, _⟩ => ⟨S32x1536, .f32⟩
  | .hbm, ⟨32, _⟩ => ⟨S32x1536, .f32⟩
  | .hbm, ⟨33, _⟩ => ⟨S32x1536x1, .f32⟩
  | .hbm, ⟨34, _⟩ => ⟨S32x1536x2048, .f32⟩
  | .hbm, ⟨35, _⟩ => ⟨S32x1536x2048, .f32⟩
  | .hbm, ⟨36, _⟩ => ⟨S32x1536x2048, .f32⟩
  | .hbm, ⟨37, _⟩ => ⟨S_, .f32⟩
  | .hbm, ⟨38, _⟩ => ⟨S32x1536, .f32⟩
  | .hbm, ⟨39, _⟩ => ⟨S32x1536x1, .f32⟩
  | .hbm, ⟨40, _⟩ => ⟨S32x1536x2048, .f32⟩
  | .hbm, ⟨41, _⟩ => ⟨S32x1536x2048, .f32⟩
  | .hbm, ⟨42, _⟩ => ⟨S32x1536x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_1 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_4 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩

abbrev nD : Nat := 1
abbrev τ : Topo := Topo.v7x

variable {F : FTy → Type} [FloatOps F]

class Facts₀ : Prop where
  shapeCasts_S1x1536x1_S1x1536 : S1x1536x1.ShapeCasts S1x1536
  bcast_S1x1536_S1x1536x1_0_1 : S1x1536.BroadcastsInDim S1x1536x1 (![0, 1] : Fin 2 → Fin S1x1536x1.rank)
  shapeCasts_S1x2048x1_S1x2048 : S1x2048x1.ShapeCasts S1x2048
  bcast_S1x2048_S1x1x2048_0_2 : S1x2048.BroadcastsInDim S1x1x2048 (![0, 2] : Fin 2 → Fin S1x1x2048.rank)
  bcast_S1x1536x1_S1x1536x2048_0_1_2 : S1x1536x1.BroadcastsInDim S1x1536x2048 (![0, 1, 2] : Fin 3 → Fin S1x1536x2048.rank)
  bcast_S1x1x2048_S1x1536x2048_0_1_2 : S1x1x2048.BroadcastsInDim S1x1536x2048 (![0, 1, 2] : Fin 3 → Fin S1x1536x2048.rank)
  bcast_S_S32x1536x2048 : S_.BroadcastsInDim S32x1536x2048 (![] : Fin 0 → Fin S32x1536x2048.rank)
  bcast_S1x1536x2048_S32x1536x2048_0_1_2 : S1x1536x2048.BroadcastsInDim S32x1536x2048 (![0, 1, 2] : Fin 3 → Fin S32x1536x2048.rank)
  reducesTo_S32x1536x2048_S32x1536_d2 : S32x1536x2048.ReducesTo [2] S32x1536
  h_S_ : 0 < S_.numel
  bcast_S_S32x1536 : S_.BroadcastsInDim S32x1536 (![] : Fin 0 → Fin S32x1536.rank)
  bcast_S32x1536_S32x1536x1_0_1 : S32x1536.BroadcastsInDim S32x1536x1 (![0, 1] : Fin 2 → Fin S32x1536x1.rank)
  bcast_S32x1536x1_S32x1536x2048_0_1_2 : S32x1536x1.BroadcastsInDim S32x1536x2048 (![0, 1, 2] : Fin 3 → Fin S32x1536x2048.rank)
  dot_S32x1536x2048_S32x2048x1024_S32x1536x1024_2_1_1_2_0_0_wf : DotDims.WF S32x1536x2048 S32x2048x1024 S32x1536x1024 [2] [1] [1] [2] [0] [0]

variable [Facts₀]

def dot_S32x1536x2048_S32x2048x1024_S32x1536x1024_2_1_1_2_0_0 : DotDims S32x1536x2048 S32x2048x1024 S32x1536x1024 where
  lhsContracting := [2]
  rhsContracting := [1]
  lhsNonContracting := [1]
  rhsNonContracting := [2]
  lhsBatch := [0]
  rhsBatch := [0]
  wf := dot_S32x1536x2048_S32x2048x1024_S32x1536x1024_2_1_1_2_0_0_wf

class Facts : Prop extends Facts₀ where

variable [Facts]
-- ==== Proof.LibOnlineSoftmax.lean ====
/-
  The online (block by block) softmax-weighted sum equals the whole-row one, on the extended reals.

  A row of real scores `s` and real values `d` is cut into blocks of `K` entries. The online form keeps a running
  maximum `m`, a running sum `l` of `exp (s - m)` and a running weighted sum `a` of `exp (s - m) * d`; a new block first
  raises the maximum to `m'`, rescales both sums by `exp (m - m')`, and adds the block's terms taken against `m'`.
  Started from `(-∞, 0, 0)`, after `J ≥ 1` blocks the state is the maximum `M` of all entries seen, `∑ exp (s - M)` and
  `∑ exp (s - M) * d` (real numbers), so `a * (1 / l)` is the softmax-weighted sum `∑ (exp (s - M) / ∑ exp (s - M)) * d`.
  The law is `exp (m - m') * exp (s - m) = exp (s - m')` on the reals, with `exp (-∞) = 0` starting the recursion.
-/
import Idealize.ShloMosaic.PureOps.Ideal

noncomputable section

namespace Cert.LibOnlineSoftmax

open Idealize.ShloMosaic

variable {K : ℕ}

/-- A block's maximum as a reduction computes it: the fold of `max` from `-∞`. -/
def blockMax (s : Fin K → EReal) : EReal := (Finset.univ : Finset (Fin K)).fold max ⊥ s

/-- One block's update of the running maximum, sum and weighted sum. -/
def step (s d : Fin K → EReal) (p : EReal × EReal × EReal) : EReal × EReal × EReal :=
  (max p.1 (blockMax s),
   Ideal.exp (p.1 - max p.1 (blockMax s)) * p.2.1 + ∑ k, Ideal.exp (s k - max p.1 (blockMax s)),
   Ideal.exp (p.1 - max p.1 (blockMax s)) * p.2.2 + ∑ k, Ideal.exp (s k - max p.1 (blockMax s)) * d k)

/-- The state after the first `j` blocks, from `(-∞, 0, 0)`. -/
def state (s d : ℕ → Fin K → EReal) : ℕ → EReal × EReal × EReal
  | 0 => (⊥, 0, 0)
  | j + 1 => step (s j) (d j) (state s d j)

/-- The maximum of the first `j` blocks of a real family, `j ≥ 1`, `K ≥ 1`. -/
def rowMax (s : ℕ → Fin K → ℝ) (j : ℕ) (hj : 0 < j) (hK : 0 < K) : ℝ :=
  ((Finset.range j).product (Finset.univ : Finset (Fin K))).sup' (by
    exact ⟨(0, ⟨0, hK⟩), Finset.mem_product.mpr ⟨Finset.mem_range.mpr hj, Finset.mem_univ _⟩⟩) (fun p => s p.1 p.2)

/-! ### Auxiliary facts -/

/-- The coercion of a finite sum of reals is the sum of the coercions. -/
theorem coe_sum {ι : Type*} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- The real maximum of the first j blocks, seen in the extended reals, is the supremum over the blocks of the
    blocks' maxima (each a fold of max from -∞, which is the supremum of the block). -/
theorem coe_rowMax (s : ℕ → Fin K → ℝ) (hK : 0 < K) (j : ℕ) (hj : 0 < j) :
    ((rowMax s j hj hK : ℝ) : EReal)
      = (Finset.range j).sup (fun b => blockMax (fun k => (s b k : EReal))) := by
  have H : (Finset.range j ×ˢ (Finset.univ : Finset (Fin K))).Nonempty :=
    ⟨(0, ⟨0, hK⟩), Finset.mem_product.mpr ⟨Finset.mem_range.mpr hj, Finset.mem_univ _⟩⟩
  have h1 : rowMax s j hj hK = (Finset.range j ×ˢ Finset.univ).sup' H (fun p => s p.1 p.2) := rfl
  rw [h1, Finset.comp_sup'_eq_sup'_comp H (fun x : ℝ => (x : EReal))
    (fun x y => EReal.coe_strictMono.monotone.map_max), Finset.sup'_eq_sup, Finset.sup_product_left]
  rfl

/-- The first block's maximum is the maximum of the first one block. -/
theorem blockMax_zero (s : ℕ → Fin K → ℝ) (hK : 0 < K) :
    blockMax (fun k => (s 0 k : EReal)) = ((rowMax s 1 Nat.one_pos hK : ℝ) : EReal) := by
  rw [coe_rowMax, Finset.range_one, Finset.sup_singleton]

/-- Taking in block j + 1 raises the maximum of the first j + 1 blocks to that of the first j + 2. -/
theorem max_rowMax_blockMax (s : ℕ → Fin K → ℝ) (hK : 0 < K) (j : ℕ) :
    max ((rowMax s (j + 1) (Nat.succ_pos j) hK : ℝ) : EReal) (blockMax (fun k => (s (j + 1) k : EReal)))
      = ((rowMax s (j + 1 + 1) (Nat.succ_pos (j + 1)) hK : ℝ) : EReal) := by
  rw [coe_rowMax s hK (j + 1 + 1), Finset.range_add_one, Finset.sup_insert, ← coe_rowMax s hK (j + 1), max_comm]

/-- Rescaling the sum of exponentials from the maximum M to M'. -/
theorem rescale_sum (s : ℕ → Fin K → ℝ) (j : ℕ) (M M' : ℝ) :
    Real.exp (M - M') * ∑ b ∈ Finset.range j, ∑ k, Real.exp (s b k - M)
      = ∑ b ∈ Finset.range j, ∑ k, Real.exp (s b k - M') := by
  rw [Finset.mul_sum]
  refine Finset.sum_congr rfl fun b _ => ?_
  rw [Finset.mul_sum]
  refine Finset.sum_congr rfl fun k _ => ?_
  rw [← Real.exp_add]
  congr 1
  ring

/-- Rescaling the weighted sum of exponentials from the maximum M to M'. -/
theorem rescale_wsum (s d : ℕ → Fin K → ℝ) (j : ℕ) (M M' : ℝ) :
    Real.exp (M - M') * ∑ b ∈ Finset.range j, ∑ k, Real.exp (s b k - M) * d b k
      = ∑ b ∈ Finset.range j, ∑ k, Real.exp (s b k - M') * d b k := by
  rw [Finset.mul_sum]
  refine Finset.sum_congr rfl fun b _ => ?_
  rw [Finset.mul_sum]
  refine Finset.sum_congr rfl fun k _ => ?_
  rw [← mul_assoc, ← Real.exp_add]
  congr 2
  ring

/-- One step from the start (-∞, 0, 0): the rescaling factor is exp (-∞) = 0, and what remains is the block's own
    sums against the block's maximum. -/
theorem step_bot (s d : Fin K → ℝ) (M' : ℝ) (h : blockMax (fun k => (s k : EReal)) = (M' : EReal)) :
    step (fun k => (s k : EReal)) (fun k => (d k : EReal)) (⊥, 0, 0)
      = ((M' : EReal), ((∑ k, Real.exp (s k - M') : ℝ) : EReal), ((∑ k, Real.exp (s k - M') * d k : ℝ) : EReal)) := by
  unfold step
  simp only [bot_sup_eq, max_bot_left, h, EReal.bot_sub, Ideal.exp_bot, zero_mul, zero_add, mul_zero,
    ← EReal.coe_sub, Ideal.exp_coe, ← EReal.coe_mul, ← coe_sum]

/-- One step from a real state (M, L, A), the new maximum being the real M'. -/
theorem step_real (s d : Fin K → ℝ) (M L A M' : ℝ)
    (h : max (M : EReal) (blockMax (fun k => (s k : EReal))) = (M' : EReal)) :
    step (fun k => (s k : EReal)) (fun k => (d k : EReal)) ((M : EReal), (L : EReal), (A : EReal))
      = ((M' : EReal),
         ((Real.exp (M - M') * L + ∑ k, Real.exp (s k - M') : ℝ) : EReal),
         ((Real.exp (M - M') * A + ∑ k, Real.exp (s k - M') * d k : ℝ) : EReal)) := by
  unfold step
  simp only [h, ← EReal.coe_sub, Ideal.exp_coe, ← EReal.coe_mul, ← coe_sum, ← EReal.coe_add]

/-- The state after j + 1 blocks of real scores and values. -/
theorem state_succ_eq (s d : ℕ → Fin K → ℝ) (hK : 0 < K) (j : ℕ) :
    state (fun b k => (s b k : EReal)) (fun b k => (d b k : EReal)) (j + 1)
      = (((rowMax s (j + 1) (Nat.succ_pos j) hK : ℝ) : EReal),
         ((∑ b ∈ Finset.range (j + 1), ∑ k, Real.exp (s b k - rowMax s (j + 1) (Nat.succ_pos j) hK) : ℝ) : EReal),
         ((∑ b ∈ Finset.range (j + 1), ∑ k,
            Real.exp (s b k - rowMax s (j + 1) (Nat.succ_pos j) hK) * d b k : ℝ) : EReal)) := by
  induction j with
  | zero =>
    show step (fun k => (s 0 k : EReal)) (fun k => (d 0 k : EReal)) (⊥, 0, 0) = _
    rw [step_bot (s 0) (d 0) _ (blockMax_zero s hK), Finset.sum_range_one, Finset.sum_range_one]
  | succ j ih =>
    show step (fun k => (s (j + 1) k : EReal)) (fun k => (d (j + 1) k : EReal))
      (state (fun b k => (s b k : EReal)) (fun b k => (d b k : EReal)) (j + 1)) = _
    rw [ih, step_real (s (j + 1)) (d (j + 1)) _ _ _ _ (max_rowMax_blockMax s hK j), rescale_sum, rescale_wsum,
      ← Finset.sum_range_succ, ← Finset.sum_range_succ]

/-- After `j ≥ 1` blocks of real scores and values the state is the maximum, the sum of exponentials against it and the
    weighted sum, all real. -/
theorem state_eq (s d : ℕ → Fin K → ℝ) (hK : 0 < K) (j : ℕ) (hj : 0 < j) :
    state (fun b k => (s b k : EReal)) (fun b k => (d b k : EReal)) j
      = (((rowMax s j hj hK : ℝ) : EReal),
         ((∑ b ∈ Finset.range j, ∑ k, Real.exp (s b k - rowMax s j hj hK) : ℝ) : EReal),
         ((∑ b ∈ Finset.range j, ∑ k, Real.exp (s b k - rowMax s j hj hK) * d b k : ℝ) : EReal)) := by
  obtain ⟨i, rfl⟩ := Nat.exists_eq_succ_of_ne_zero hj.ne'
  exact state_succ_eq s d hK i

/-- The whole-row form: each weight is `exp (s - M)` divided by the sum of them (started from `0`, as a host sum is),
    and the result is the weights' sum against `d` (again from `0`). With `M` the maximum it equals the online form's
    `a * (1 / l)`. -/
theorem softmax_eq_online (s d : ℕ → Fin K → ℝ) (hK : 0 < K) (j : ℕ) (hj : 0 < j) (M : EReal)
    (hM : M = ((rowMax s j hj hK : ℝ) : EReal)) :
    (0 : EReal) + ∑ b ∈ Finset.range j, ∑ k,
        Ideal.div (Ideal.exp ((s b k : EReal) - M)) ((0 : EReal) + ∑ b' ∈ Finset.range j, ∑ k', Ideal.exp ((s b' k' : EReal) - M)) * (d b k : EReal)
      = (state (fun b k => (s b k : EReal)) (fun b k => (d b k : EReal)) j).2.2
          * Ideal.div 1 (state (fun b k => (s b k : EReal)) (fun b k => (d b k : EReal)) j).2.1 := by
  subst hM
  rw [state_eq s d hK j hj]
  have hexp : ∀ b k, Ideal.exp ((s b k : EReal) - ((rowMax s j hj hK : ℝ) : EReal))
      = ((Real.exp (s b k - rowMax s j hj hK) : ℝ) : EReal) := fun b k => by
    rw [← EReal.coe_sub, Ideal.exp_coe]
  have hpos : 0 < ∑ b ∈ Finset.range j, ∑ k, Real.exp (s b k - rowMax s j hj hK) := by
    refine Finset.sum_pos (fun b _ => ?_) ⟨0, Finset.mem_range.mpr hj⟩
    exact Finset.sum_pos (fun k _ => Real.exp_pos _) ⟨⟨0, hK⟩, Finset.mem_univ _⟩
  simp only [hexp, zero_add, ← coe_sum, Ideal.div_coe hpos.ne', one_mul, ← EReal.coe_mul]
  congr 1
  rw [Finset.sum_mul]
  refine Finset.sum_congr rfl fun b _ => ?_
  rw [Finset.sum_mul]
  refine Finset.sum_congr rfl fun k _ => ?_
  ring

/-- The maximum of all entries as folds compute it: the fold of `max` from `-∞` over each block, folded over the blocks,
    is the real maximum. -/
theorem fold_blockMax_eq (s : ℕ → Fin K → ℝ) (hK : 0 < K) (j : ℕ) (hj : 0 < j) :
    (Finset.range j).fold max ⊥ (fun b => blockMax (fun k => (s b k : EReal))) = ((rowMax s j hj hK : ℝ) : EReal) := by
  exact (coe_rowMax s hK j hj).symm

end Cert.LibOnlineSoftmax

end
-- ==== Proof.Spec.lean ====
/-
  What the two programs compute, as one function of the four argument arrays.

  For a batch `b`, a query row `r` and a key position `j` the score is
  `(-|flex r - fixed j| + g (u b r j)) · c`, where `g u = -log (-log (u + ε) + ε)` is the Gumbel noise of the
  uniform sample `u` and `c` is the reciprocal of the temperature. The result at `(b, r, f)` is the softmax of the row
  of scores over `j`, weighted against `feature (b, j, f)`.

  The 2048 key positions are cut into four tiles of 512; the specification is written in the block-by-block form:
  the state (running maximum, running sum of exponentials, running weighted sum) after four tiles, and the result the
  weighted sum divided by the sum of exponentials.
-/
import Idealize.ShloMosaic.PureOps.Ideal
import Idealize.ShloMosaic.PureOps.Ideal.Laws
import Idealize.ShloMosaic.Lib.ValueIdx
import proofs.«134700_j89034672046362_2_alg».proof.Proof.LibOnlineSoftmax

noncomputable section

namespace Cert.Attn

open Idealize.ShloMosaic Idealize.ShloMosaic.ValueIdx

abbrev SFeat : Shape := ⟨3, ![32, 2048, 1024]⟩
abbrev SFix : Shape := ⟨3, ![1, 2048, 1]⟩
abbrev SFlex : Shape := ⟨3, ![1, 1536, 1]⟩
abbrev SU : Shape := ⟨3, ![32, 1536, 2048]⟩
abbrev SOut : Shape := ⟨3, ![32, 1536, 1024]⟩

/-- The small positive constant both programs add under each logarithm. -/
def eps : EReal := Ideal.ofBits .f32 0x2B8CBCCC#32

/-- The reciprocal of the temperature: one over the binary fraction that the decimal 0.2 rounds to. -/
def invT : EReal := ((67108864 / 13421773 : ℝ) : EReal)

/-- The Gumbel noise of a uniform sample. -/
def gumbel (u : EReal) : EReal := -(Ideal.log (-(Ideal.log (u + eps)) + eps))

/-- One score: minus the distance of the two points, plus the noise, over the temperature. -/
def score (fx fl u : EReal) : EReal := (-(max (fl - fx) (-(fl - fx))) + gumbel u) * invT

/-- The row of scores of batch `b`, query row `r`. -/
def scoreRow (fixed : SFix.Idx → EReal) (flex : SFlex.Idx → EReal) (u : SU.Idx → EReal) (b : Fin 32) (r : Fin 1536) :
    Fin 2048 → EReal :=
  fun j => score (fixed (ix3 (0 : Fin 1) j (0 : Fin 1))) (flex (ix3 (0 : Fin 1) r (0 : Fin 1))) (u (ix3 b r j))

/-- Column `f` of batch `b` of the values. -/
def featCol (feat : SFeat.Idx → EReal) (b : Fin 32) (f : Fin 1024) : Fin 2048 → EReal :=
  fun j => feat (ix3 b j f)

/-- Position `k` of tile `si` of a row of 2048 entries (tiles beyond the fourth wrap around; they are never used). -/
def tilePos (si : ℕ) (k : Fin 512) : Fin 2048 := ⟨(512 * si + k.val) % 2048, Nat.mod_lt _ (by norm_num)⟩

theorem tilePos_val (si : ℕ) (h : si < 4) (k : Fin 512) : (tilePos si k).val = 512 * si + k.val := by
  have := k.isLt
  show (512 * si + k.val) % 2048 = _
  exact Nat.mod_eq_of_lt (by omega)

/-- A row cut into tiles. -/
def tiles (x : Fin 2048 → EReal) : ℕ → Fin 512 → EReal := fun si k => x (tilePos si k)

/-- The block-by-block state of row `(b, r)` against column `f` after `n` tiles. -/
def rowState (fixed : SFix.Idx → EReal) (flex : SFlex.Idx → EReal) (u : SU.Idx → EReal) (feat : SFeat.Idx → EReal)
    (b : Fin 32) (r : Fin 1536) (f : Fin 1024) (n : ℕ) : EReal × EReal × EReal :=
  LibOnlineSoftmax.state (tiles (scoreRow fixed flex u b r)) (tiles (featCol feat b f)) n

/-- The result array: the weighted sum after four tiles over the sum of exponentials after four tiles. -/
def result (feat : SFeat.Idx → EReal) (fixed : SFix.Idx → EReal) (flex : SFlex.Idx → EReal) (u : SU.Idx → EReal) :
    SOut.Idx → EReal :=
  fun i => Ideal.div (rowState fixed flex u feat (i 0) (i 1) (i 2) 4).2.2 (rowState fixed flex u feat (i 0) (i 1) (i 2) 4).2.1

/-- The running maximum and the running sum of exponentials do not depend on the values. -/
theorem state_fst_indep {K : ℕ} (s d d' : ℕ → Fin K → EReal) (n : ℕ) :
    (LibOnlineSoftmax.state s d n).1 = (LibOnlineSoftmax.state s d' n).1
      ∧ (LibOnlineSoftmax.state s d n).2.1 = (LibOnlineSoftmax.state s d' n).2.1 := by
  induction n with
  | zero => exact ⟨rfl, rfl⟩
  | succ n ih =>
    show (LibOnlineSoftmax.step (s n) (d n) (LibOnlineSoftmax.state s d n)).1 = (LibOnlineSoftmax.step (s n) (d' n) (LibOnlineSoftmax.state s d' n)).1
      ∧ (LibOnlineSoftmax.step (s n) (d n) (LibOnlineSoftmax.state s d n)).2.1 = (LibOnlineSoftmax.step (s n) (d' n) (LibOnlineSoftmax.state s d' n)).2.1
    unfold LibOnlineSoftmax.step
    dsimp only
    rw [ih.1, ih.2]
    exact ⟨rfl, rfl⟩

/-! ## The whole-row form -/

/-- The same score with the temperature as a divisor: the binary fraction the decimal 0.2 rounds to. -/
def scoreDiv (fx fl u : EReal) : EReal :=
  Ideal.div (-(max (fl - fx) (-(fl - fx))) + gumbel u) (Ideal.ofBits .f32 0x3E4CCCCD#32)

/-- The row of scores of batch `b`, query row `r`, with the temperature as a divisor. -/
def scoreRowDiv (fixed : SFix.Idx → EReal) (flex : SFlex.Idx → EReal) (u : SU.Idx → EReal) (b : Fin 32) (r : Fin 1536) :
    Fin 2048 → EReal :=
  fun j => scoreDiv (fixed (ix3 (0 : Fin 1) j (0 : Fin 1))) (flex (ix3 (0 : Fin 1) r (0 : Fin 1))) (u (ix3 b r j))

/-- The greatest entry of a row, as a maximum taken from minus infinity computes it (and once more against minus infinity). -/
def rowTop (s : Fin 2048 → EReal) : EReal :=
  max (Ideal.ofBits .f32 0xFF800000#32) ((Finset.univ : Finset (Fin 2048)).fold max (Ideal.ofBits .f32 0xFF800000#32) s)

/-- The softmax of the row `s` against the values `d`: each weight is `exp (s j - top)` over the sum of them (taken from
    zero), and the result the sum of the weights times the values. -/
def softmaxRow (s d : Fin 2048 → EReal) : EReal :=
  ∑ j : Fin 2048, Ideal.div (Ideal.exp (s j - rowTop s))
      (Ideal.ofBits .f32 0x00000000#32 + ∑ j' : Fin 2048, Ideal.exp (s j' - rowTop s)) * d j

/-- The result array in the whole-row form. -/
def resultRows (feat : SFeat.Idx → EReal) (fixed : SFix.Idx → EReal) (flex : SFlex.Idx → EReal) (u : SU.Idx → EReal) :
    SOut.Idx → EReal :=
  fun i => softmaxRow (scoreRowDiv fixed flex u (i 0) (i 1)) (featCol feat (i 0) (i 2))

end Cert.Attn

end
-- ==== Proof.Pieces.lean ====
import proofs.«134700_j89034672046362_2_alg».proof.Proof.Gen.KernelIdeal.Frame
import Idealize.ShloMosaic.Lib.Pipeline.Value
import Idealize.ShloMosaic.Lib.Tactic

set_option maxRecDepth 16384

noncomputable section

namespace Cert.Attn

open Cert.KernelIdeal Cert.KernelIdeal.Gen Idealize.ShloMosaic Idealize.ShloMosaic.TcCoe Idealize.SL.Sem
open Idealize.ShloMosaic.Pipeline (Dat)

variable {F : FTy → Type} [FloatOps F] [Named F]

variable (c : Dev nD) (i : grid0.Coords)
  (arg2 : Memref sig .tc .vmem S1x512 .f32) (harg2 : arg2.IsWhole) (arg3 : Memref sig .tc .vmem S1536x1 .f32) (harg3 : arg3.IsWhole)
  (arg4 : Memref sig .tc .vmem S1x1536x512 .f32) (harg4 : arg4.IsWhole) (arg5 : Memref sig .tc .vmem S1x512x1024 .f32) (harg5 : arg5.IsWhole)
  (arg6 : Memref sig .tc .vmem S1x1536x1024 .f32) (harg6 : arg6.IsWhole) (arg7 : Memref sig .tc .vmem S1536x1 .f32) (harg7 : arg7.IsWhole)
  (arg8 : Memref sig .tc .vmem S1536x1 .f32) (harg8 : arg8.IsWhole) (arg9 : Memref sig .tc .vmem S1536x1024 .f32) (harg9 : arg9.IsWhole)
  (x0 : Vec F S1x512 .f32) (x1 : Vec F S1536x1 .f32) (x2 : Vec F S1x1536x512 .f32) (x3 : Vec F S1x512x1024 .f32)
  (xs0 : Vec F S1536x1 .f32) (xs1 : Vec F S1536x1 .f32) (xs2 : Vec F S1536x1024 .f32)

/-! What each case of the body leaves in the three carried scratch arrays and in the output block, as the body's pure terms of the blocks it loads. -/

theorem hz2 : (![0, 0] : Fin 2 → Nat) = fun _ => 0 := funext fun a => by fin_cases a <;> rfl
theorem hz3 : (![0, 0, 0] : Fin 3 → Nat) = fun _ => 0 := funext fun a => by fin_cases a <;> rfl

theorem sout_A_0 (hc0 : cond0_0 i) (hc1 : ¬cond0_1 i) :
    sout0_A_0 c i arg2 harg2 arg3 harg3 arg4 harg4 arg5 harg5 arg6 harg6 arg7 harg7 arg8 harg8 arg9 harg9 hc0 hc1 x0 x1 x2 x3 = k0_pay3 (k0_pay9 x1 x0 x2 (k0_pay5 (F := F))) := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S1536x1) hz2]
  repeat rw [View.readCov_unit_zero (S := S1536x1) _ hz2]
  repeat rw [View.readCov_unit_zero (S := S1536x1024) _ hz2]
  simp only [View.readAt_eq_ld, harg2.read_unread, harg3.read_unread, harg4.read_unread, harg5.read_unread, harg7.read_unread, harg8.read_unread, harg9.read_unread,
    View.ld_unit_zero (S := S1536x1) hz2, View.ld_unit_zero (S := S1x512) hz2, View.ld_unit_zero (S := S1536x1024) hz2, View.ld_unit_zero (S := S1x1536x512) hz3, View.ld_unit_zero (S := S1x512x1024) hz3]

theorem sout_A_1 (hc0 : cond0_0 i) (hc1 : ¬cond0_1 i) :
    sout0_A_1 c i arg2 harg2 arg3 harg3 arg4 harg4 arg5 harg5 arg6 harg6 arg7 harg7 arg8 harg8 arg9 harg9 hc0 hc1 x0 x1 x2 x3 = k0_pay1 (k0_pay10 x1 x0 x2 (k0_pay5 (F := F))) (k0_pay11 x1 x0 x2 (k0_pay5 (F := F))) (k0_pay6 (F := F)) := by
  unfold sout0_A_1
  rw [View.read_writes_eq_canon _ _ _ (scover0_A_1 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S1536x1) hz2]
  repeat rw [View.readCov_unit_zero (S := S1536x1) _ hz2]
  repeat rw [View.readCov_unit_zero (S := S1536x1024) _ hz2]
  simp only [View.readAt_eq_ld, harg2.read_unread, harg3.read_unread, harg4.read_unread, harg5.read_unread, harg7.read_unread, harg8.read_unread, harg9.read_unread,
    View.ld_unit_zero (S := S1536x1) hz2, View.ld_unit_zero (S := S1x512) hz2, View.ld_unit_zero (S := S1536x1024) hz2, View.ld_unit_zero (S := S1x1536x512) hz3, View.ld_unit_zero (S := S1x512x1024) hz3]

theorem sout_A_2 (hc0 : cond0_0 i) (hc1 : ¬cond0_1 i) :
    sout0_A_2 c i arg2 harg2 arg3 harg3 arg4 harg4 arg5 harg5 arg6 harg6 arg7 harg7 arg8 harg8 arg9 harg9 hc0 hc1 x0 x1 x2 x3 = k0_pay2 (k0_pay10 x1 x0 x2 (k0_pay5 (F := F))) (k0_pay11 x1 x0 x2 (k0_pay5 (F := F))) x3 (k0_pay7 (F := F)) := by
  unfold sout0_A_2
  rw [View.read_writes_eq_canon _ _ _ (scover0_A_2 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S1536x1024) hz2]
  repeat rw [View.readCov_unit_zero (S := S1536x1) _ hz2]
  repeat rw [View.readCov_unit_zero (S := S1536x1024) _ hz2]
  simp only [View.readAt_eq_ld, harg2.read_unread, harg3.read_unread, harg4.read_unread, harg5.read_unread, harg7.read_unread, harg8.read_unread, harg9.read_unread,
    View.ld_unit_zero (S := S1536x1) hz2, View.ld_unit_zero (S := S1x512) hz2, View.ld_unit_zero (S := S1536x1024) hz2, View.ld_unit_zero (S := S1x1536x512) hz3, View.ld_unit_zero (S := S1x512x1024) hz3]

theorem sout_B_0 (hc0 : ¬cond0_0 i) (hc1 : ¬cond0_1 i) :
    sout0_B_0 c i arg2 harg2 arg3 harg3 arg4 harg4 arg5 harg5 arg6 harg6 arg7 harg7 arg8 harg8 arg9 harg9 hc0 hc1 x0 x1 x2 x3 xs0 xs1 xs2 = k0_pay3 (k0_pay9 x1 x0 x2 xs0) := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 xs0 xs1 xs2)]
  unfold kernelRun0_B
  dsimp only
  sl_unfold_words
  rw [View.canon_unit_zero hz2]
  simp only [View.readAt_eq_ld, harg2.read_unread, harg3.read_unread, harg4.read_unread, harg5.read_unread, harg7.read_unread, harg8.read_unread, harg9.read_unread,
    View.ld_unit_zero (S := S1536x1) hz2, View.ld_unit_zero (S := S1x512) hz2, View.ld_unit_zero (S := S1536x1024) hz2, View.ld_unit_zero (S := S1x1536x512) hz3, View.ld_unit_zero (S := S1x512x1024) hz3]

theorem sout_B_1 (hc0 : ¬cond0_0 i) (hc1 : ¬cond0_1 i) :
    sout0_B_1 c i arg2 harg2 arg3 harg3 arg4 harg4 arg5 harg5 arg6 harg6 arg7 harg7 arg8 harg8 arg9 harg9 hc0 hc1 x0 x1 x2 x3 xs0 xs1 xs2 = k0_pay1 (k0_pay10 x1 x0 x2 xs0) (k0_pay11 x1 x0 x2 xs0) xs1 := by
  unfold sout0_B_1
  rw [View.read_writes_eq_canon _ _ _ (scover0_B_1 c i arg2 harg2 arg3 harg3 arg4 harg4 arg5 harg5 arg6 harg6 arg7 harg7 arg8 harg8 arg9 harg9 hc0 hc1 x0 x1 x2 x3 xs0 xs1 xs2)]
  unfold kernelRun0_B
  dsimp only
  sl_unfold_words
  rw [View.canon_unit_zero hz2]
  simp only [View.readAt_eq_ld, harg2.read_unread, harg3.read_unread, harg4.read_unread, harg5.read_unread, harg7.read_unread, harg8.read_unread, harg9.read_unread,
    View.ld_unit_zero (S := S1536x1) hz2, View.ld_unit_zero (S := S1x512) hz2, View.ld_unit_zero (S := S1536x1024) hz2, View.ld_unit_zero (S := S1x1536x512) hz3, View.ld_unit_zero (S := S1x512x1024) hz3]

theorem sout_B_2 (hc0 : ¬cond0_0 i) (hc1 : ¬cond0_1 i) :
    sout0_B_2 c i arg2 harg2 arg3 harg3 arg4 harg4 arg5 harg5 arg6 harg6 arg7 harg7 arg8 harg8 arg9 harg9 hc0 hc1 x0 x1 x2 x3 xs0 xs1 xs2 = k0_pay2 (k0_pay10 x1 x0 x2 xs0) (k0_pay11 x1 x0 x2 xs0) x3 xs2 := by
  unfold sout0_B_2
  rw [View.read_writes_eq_canon _ _ _ (scover0_B_2 c i arg2 harg2 arg3 harg3 arg4 harg4 arg5 harg5 arg6 harg6 arg7 harg7 arg8 harg8 arg9 harg9 hc0 hc1 x0 x1 x2 x3 xs0 xs1 xs2)]
  unfold kernelRun0_B
  dsimp only
  sl_unfold_words
  rw [View.canon_unit_zero hz2]
  simp only [View.readAt_eq_ld, harg2.read_unread, harg3.read_unread, harg4.read_unread, harg5.read_unread, harg7.read_unread, harg8.read_unread, harg9.read_unread,
    View.ld_unit_zero (S := S1536x1) hz2, View.ld_unit_zero (S := S1x512) hz2, View.ld_unit_zero (S := S1536x1024) hz2, View.ld_unit_zero (S := S1x1536x512) hz3, View.ld_unit_zero (S := S1x512x1024) hz3]

theorem sout_C_0 (hc0 : ¬cond0_0 i) (hc1 : cond0_1 i) :
    sout0_C_0 c i arg2 harg2 arg3 harg3 arg4 harg4 arg5 harg5 arg6 harg6 arg7 harg7 arg8 harg8 arg9 harg9 hc0 hc1 x0 x1 x2 x3 xs0 xs1 xs2 = k0_pay3 (k0_pay9 x1 x0 x2 xs0) := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 x3 xs0 xs1 xs2)]
  unfold kernelRun0_C
  dsimp only
  sl_unfold_words
  rw [View.canon_unit_zero hz2]
  simp only [View.readAt_eq_ld, harg2.read_unread, harg3.read_unread, harg4.read_unread, harg5.read_unread, harg7.read_unread, harg8.read_unread, harg9.read_unread,
    View.ld_unit_zero (S := S1536x1) hz2, View.ld_unit_zero (S := S1x512) hz2, View.ld_unit_zero (S := S1536x1024) hz2, View.ld_unit_zero (S := S1x1536x512) hz3, View.ld_unit_zero (S := S1x512x1024) hz3]

theorem sout_C_1 (hc0 : ¬cond0_0 i) (hc1 : cond0_1 i) :
    sout0_C_1 c i arg2 harg2 arg3 harg3 arg4 harg4 arg5 harg5 arg6 harg6 arg7 harg7 arg8 harg8 arg9 harg9 hc0 hc1 x0 x1 x2 x3 xs0 xs1 xs2 = k0_pay1 (k0_pay10 x1 x0 x2 xs0) (k0_pay11 x1 x0 x2 xs0) xs1 := by
  unfold sout0_C_1
  rw [View.read_writes_eq_canon _ _ _ (scover0_C_1 c i arg2 harg2 arg3 harg3 arg4 harg4 arg5 harg5 arg6 harg6 arg7 harg7 arg8 harg8 arg9 harg9 hc0 hc1 x0 x1 x2 x3 xs0 xs1 xs2)]
  unfold kernelRun0_C
  dsimp only
  sl_unfold_words
  rw [View.canon_unit_zero hz2]
  simp only [View.readAt_eq_ld, harg2.read_unread, harg3.read_unread, harg4.read_unread, harg5.read_unread, harg7.read_unread, harg8.read_unread, harg9.read_unread,
    View.ld_unit_zero (S := S1536x1) hz2, View.ld_unit_zero (S := S1x512) hz2, View.ld_unit_zero (S := S1536x1024) hz2, View.ld_unit_zero (S := S1x1536x512) hz3, View.ld_unit_zero (S := S1x512x1024) hz3]

theorem sout_C_2 (hc0 : ¬cond0_0 i) (hc1 : cond0_1 i) :
    sout0_C_2 c i arg2 harg2 arg3 harg3 arg4 harg4 arg5 harg5 arg6 harg6 arg7 harg7 arg8 harg8 arg9 harg9 hc0 hc1 x0 x1 x2 x3 xs0 xs1 xs2 = k0_pay2 (k0_pay10 x1 x0 x2 xs0) (k0_pay11 x1 x0 x2 xs0) x3 xs2 := by
  unfold sout0_C_2
  rw [View.read_writes_eq_canon _ _ _ (scover0_C_2 c i arg2 harg2 arg3 harg3 arg4 harg4 arg5 harg5 arg6 harg6 arg7 harg7 arg8 harg8 arg9 harg9 hc0 hc1 x0 x1 x2 x3 xs0 xs1 xs2)]
  unfold kernelRun0_C
  dsimp only
  sl_unfold_words
  rw [View.canon_unit_zero hz2]
  simp only [View.readAt_eq_ld, harg2.read_unread, harg3.read_unread, harg4.read_unread, harg5.read_unread, harg7.read_unread, harg8.read_unread, harg9.read_unread,
    View.ld_unit_zero (S := S1536x1) hz2, View.ld_unit_zero (S := S1x512) hz2, View.ld_unit_zero (S := S1536x1024) hz2, View.ld_unit_zero (S := S1x1536x512) hz3, View.ld_unit_zero (S := S1x512x1024) hz3]

theorem out_C_4 (hc0 : ¬cond0_0 i) (hc1 : cond0_1 i) :
    out0_C_4 c i arg2 harg2 arg3 harg3 arg4 harg4 arg5 harg5 arg6 harg6 arg7 harg7 arg8 harg8 arg9 harg9 hc0 hc1 x0 x1 x2 x3 xs0 xs1 xs2 = k0_pay4 (k0_pay2 (k0_pay10 x1 x0 x2 xs0) (k0_pay11 x1 x0 x2 xs0) x3 xs2) (k0_pay1 (k0_pay10 x1 x0 x2 xs0) (k0_pay11 x1 x0 x2 xs0) xs1) := by
  unfold out0_C_4
  rw [View.read_writes_eq_canon _ _ _ (cover0_C_4 c i arg2 harg2 arg3 harg3 arg4 harg4 arg5 harg5 arg6 harg6 arg7 harg7 arg8 harg8 arg9 harg9 hc0 hc1 x0 x1 x2 x3 xs0 xs1 xs2)]
  unfold kernelRun0_C
  dsimp only
  sl_unfold_words
  rw [View.canon_unit_zero hz3]
  repeat rw [View.readCov_unit_zero (S := S1536x1) _ hz2]
  repeat rw [View.readCov_unit_zero (S := S1536x1024) _ hz2]
  simp only [View.readAt_eq_ld, harg2.read_unread, harg3.read_unread, harg4.read_unread, harg5.read_unread, harg7.read_unread, harg8.read_unread, harg9.read_unread,
    View.ld_unit_zero (S := S1536x1) hz2, View.ld_unit_zero (S := S1x512) hz2, View.ld_unit_zero (S := S1536x1024) hz2, View.ld_unit_zero (S := S1x1536x512) hz3, View.ld_unit_zero (S := S1x512x1024) hz3]

end Cert.Attn

end
-- ==== Proof.LibRows.lean ====
/-
  One-axis reductions and keep-dimension layout operations read at coordinates, at the exact values.

  For a two-axis array `[m, n]`: the sum and the maximum over the second axis, at row `p`, as the sum and the fold of
  `max` over `s : Fin n` of the entry `(p, s)`. For a three-axis array `[a, b, c]`: the sum over the last axis at
  `(p, s)` and the sum over the middle axis at `(p, h)`. And the casts and broadcasts that insert or repeat a unit
  axis: `[a, b] → [a, 1, b]`, `[a, b] → [a, b, 1]`, `[a, 1, c] → [a, b, c]`, `[1, 1, c] → [a, b, c]`,
  `[a, b, 1] → [a, b, c]`. Each lemma names the operand's index by coordinates, so that it applies by unification.
-/
import Idealize.ShloMosaic.Lib.Pipeline.Value
import Idealize.ShloMosaic.Lib.ValueIdx
import Idealize.ShloMosaic.PureOps.Ideal.Laws

namespace Cert.LibRows

open Idealize.ShloMosaic Idealize.ShloMosaic.ValueIdx

variable {φ : FTy}

/-! ## Reductions over one axis -/

/-- The sum over the second axis of `[m, n]`, at row `p`: `∑ₛ x (p, s)`. -/
theorem rowSum_apply {m n : ℕ} (x : FVec Ideal ⟨2, ![m, n]⟩ φ) (acc : BitVec φ.bits)
    (h : (⟨2, ![m, n]⟩ : Shape).Reduces [(1 : Fin 2)] ⟨1, ![m]⟩) (hφ : FKind.Formats φ) (hacc : acc = FKind.add.neutral φ hφ)
    (p : Fin m) :
    multiReduction .add [(1 : Fin 2)] ⟨1, ![m]⟩ x acc h hφ hacc (ix1 p) = ∑ s : Fin n, x (ix2 p s) :=
  (Ideal.multiReduction_add_single x acc h hφ hacc (ix1 p)).trans
    (Finset.sum_congr rfl fun s _ => congrArg x (funext fun a => Fin.ext (by
      match a with
      | ⟨0, _⟩ => rfl
      | ⟨1, _⟩ => rfl)))

/-- The maximum over the second axis of `[m, n]`, at row `p`: the fold of `max`, from the accumulator's value, over
    `s` of `x (p, s)`. -/
theorem rowMax_apply {m n : ℕ} (x : FVec Ideal ⟨2, ![m, n]⟩ φ) (acc : BitVec φ.bits)
    (h : (⟨2, ![m, n]⟩ : Shape).Reduces [(1 : Fin 2)] ⟨1, ![m]⟩) (hφ : FKind.Formats φ) (hacc : acc = FKind.maximumf.neutral φ hφ)
    (p : Fin m) :
    multiReduction .maximumf [(1 : Fin 2)] ⟨1, ![m]⟩ x acc h hφ hacc (ix1 p)
      = (Finset.univ : Finset (Fin n)).fold max (Ideal.ofBits φ acc) (fun s => x (ix2 p s)) :=
  (Ideal.multiReduction_maximumf_single x acc h hφ hacc (ix1 p)).trans
    (congrArg ((Finset.univ : Finset (Fin n)).fold max (Ideal.ofBits φ acc)) (funext fun s => congrArg x (funext fun a => Fin.ext (by
      match a with
      | ⟨0, _⟩ => rfl
      | ⟨1, _⟩ => rfl))))

/-- The sum over the LAST axis of `[a, b, c]`, at `(p, s)`: `∑ₖ x (p, s, k)`. -/
theorem lastSum_apply {a b c : ℕ} (x : FVec Ideal ⟨3, ![a, b, c]⟩ φ) (acc : BitVec φ.bits)
    (h : (⟨3, ![a, b, c]⟩ : Shape).Reduces [(2 : Fin 3)] ⟨2, ![a, b]⟩) (hφ : FKind.Formats φ) (hacc : acc = FKind.add.neutral φ hφ)
    (p : Fin a) (s : Fin b) :
    multiReduction .add [(2 : Fin 3)] ⟨2, ![a, b]⟩ x acc h hφ hacc (ix2 p s) = ∑ k : Fin c, x (ix3 p s k) :=
  (Ideal.multiReduction_add_single x acc h hφ hacc (ix2 p s)).trans
    (Finset.sum_congr rfl fun k _ => congrArg x (funext fun d => Fin.ext (by
      match d with
      | ⟨0, _⟩ => rfl
      | ⟨1, _⟩ => rfl
      | ⟨2, _⟩ => rfl)))

/-- The sum over the MIDDLE axis of `[a, b, c]`, at `(p, z)`: `∑ₛ x (p, s, z)`. -/
theorem midSum_apply {a b c : ℕ} (x : FVec Ideal ⟨3, ![a, b, c]⟩ φ) (acc : BitVec φ.bits)
    (h : (⟨3, ![a, b, c]⟩ : Shape).Reduces [(1 : Fin 3)] ⟨2, ![a, c]⟩) (hφ : FKind.Formats φ) (hacc : acc = FKind.add.neutral φ hφ)
    (p : Fin a) (z : Fin c) :
    multiReduction .add [(1 : Fin 3)] ⟨2, ![a, c]⟩ x acc h hφ hacc (ix2 p z) = ∑ s : Fin b, x (ix3 p s z) :=
  (Ideal.multiReduction_add_single x acc h hφ hacc (ix2 p z)).trans
    (Finset.sum_congr rfl fun s _ => congrArg x (funext fun d => Fin.ext (by
      match d with
      | ⟨0, _⟩ => rfl
      | ⟨1, _⟩ => rfl
      | ⟨2, _⟩ => rfl)))

/-! ## Unit axes inserted and repeated -/

variable {α : Type}

/-- `[a, b]` cast to `[a, 1, b]` reads, at `(p, u, z)`, the operand at `(p, z)`. -/
theorem shapeCast_ab_a1b_apply {a b : ℕ} (x : (⟨2, ![a, b]⟩ : Shape).Idx → α)
    (h : (⟨2, ![a, b]⟩ : Shape).ShapeCasts ⟨3, ![a, 1, b]⟩) (p : Fin a) (u : Fin 1) (z : Fin b) :
    shapeCast ⟨3, ![a, 1, b]⟩ x h (ix3 p u z) = x (ix2 p z) :=
  shapeCast_apply x h _ _ (by
    have hu : u.val = 0 := by omega
    rw [Shape.rowMajor_val_two, Shape.rowMajor_val_three]
    show p.val * b + z.val = (p.val * 1 + u.val) * b + z.val
    rw [hu, Nat.mul_one, Nat.add_zero])

/-- `[a, b]` cast to `[a, b, 1]` reads, at `(p, s, u)`, the operand at `(p, s)`. -/
theorem shapeCast_ab_ab1_apply {a b : ℕ} (x : (⟨2, ![a, b]⟩ : Shape).Idx → α)
    (h : (⟨2, ![a, b]⟩ : Shape).ShapeCasts ⟨3, ![a, b, 1]⟩) (p : Fin a) (s : Fin b) (u : Fin 1) :
    shapeCast ⟨3, ![a, b, 1]⟩ x h (ix3 p s u) = x (ix2 p s) :=
  shapeCast_apply x h _ _ (by
    have hu : u.val = 0 := by omega
    rw [Shape.rowMajor_val_two, Shape.rowMajor_val_three]
    show p.val * b + s.val = (p.val * b + s.val) * 1 + u.val
    rw [hu, Nat.mul_one, Nat.add_zero])

/-- `[a, 1, c]` broadcast to `[a, b, c]` reads, at `(p, s, z)`, the operand at `(p, 0, z)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (s : Fin b) (z : Fin c) :
    broadcastTo ⟨3, ![a, b, c]⟩ v h (ix3 p s z) = v (ix3 p (0 : Fin 1) z) := by
  refine broadcastTo_apply v h (ix3 p s z) (ix3 p (0 : Fin 1) z) fun ax => ?_
  match ax with
  | ⟨0, _⟩ =>
    show p.val = if a = 1 then 0 else p.val
    split
    · have := p.isLt; omega
    · rfl
  | ⟨1, _⟩ => rfl
  | ⟨2, _⟩ =>
    show z.val = if c = 1 then 0 else z.val
    split
    · have := z.isLt; omega
    · rfl

/-- `[1, 1, c]` broadcast to `[a, b, c]` reads, at `(p, s, z)`, the operand at `(0, 0, z)`. -/
theorem broadcastTo_11c_abc_apply {a b c : ℕ} (v : (⟨3, ![1, 1, c]⟩ : Shape).Idx → α)
    (h : (⟨3, ![1, 1, c]⟩ : Shape).Broadcasts ⟨3, ![a, b, c]⟩) (p : Fin a) (s : Fin b) (z : Fin c) :
    broadcastTo ⟨3, ![a, b, c]⟩ v h (ix3 p s z) = v (ix3 (0 : Fin 1) (0 : Fin 1) z) := by
  refine broadcastTo_apply v h (ix3 p s z) (ix3 (0 : Fin 1) (0 : Fin 1) z) fun ax => ?_
  match ax with
  | ⟨0, _⟩ => rfl
  | ⟨1, _⟩ => rfl
  | ⟨2, _⟩ =>
    show z.val = if c = 1 then 0 else z.val
    split
    · have := z.isLt; omega
    · rfl

/-- `[a, b, 1]` broadcast to `[a, b, c]` reads, at `(p, s, z)`, the operand at `(p, s, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (s : Fin b) (z : Fin c) :
    broadcastTo ⟨3, ![a, b, c]⟩ v h (ix3 p s z) = v (ix3 p s (0 : Fin 1)) := by
  refine broadcastTo_apply v h (ix3 p s z) (ix3 p s (0 : Fin 1)) fun ax => ?_
  match ax with
  | ⟨0, _⟩ =>
    show p.val = if a = 1 then 0 else p.val
    split
    · have := p.isLt; omega
    · rfl
  | ⟨1, _⟩ =>
    show s.val = if b = 1 then 0 else s.val
    split
    · have := s.isLt; omega
    · rfl
  | ⟨2, _⟩ => rfl

end Cert.LibRows
-- ==== Proof.LibPlainProduct.lean ====
/-
  The product of two arrays of extended reals, rows by columns, and the two operations that compute it.

  For an `M × K` array `x` and a `K × N` array `w`, `rowsByCols x w` is the `M × N` array whose entry `(r, c)` is
  the sum over `k` of `x (r, k) · w (k, c)`. On the extended reals addition is commutative and associative, so the
  sum over the finite index set is well defined whatever its order; nothing here needs the entries to be finite.

  * `matmul_zero_plain`: a matrix unit's product into the zero accumulator, with the plain dimension numbers
    (`DotDims.plain`: contract the left operand's columns with the right operand's rows), is `rowsByCols`.
  * `dotGeneral_plain`: the host's general dot product with the same dimension numbers is `rowsByCols` too.
  * `rowsByCols_rows`: the rows of a product depend on the same rows of the left operand only — if `xb` holds rows
    `e r` of `x`, then `rowsByCols xb w` holds rows `e r` of `rowsByCols x w`. This is what lets a product computed
    one block of rows at a time be read as the whole product.
-/
import Idealize.ShloMosaic.Lib.ValueIdx
import Idealize.ShloMosaic.PureOps.Ideal.Laws

noncomputable section

open scoped BigOperators

namespace Idealize.ShloMosaic.PlainProduct

open Idealize.ShloMosaic Idealize.ShloMosaic.ValueIdx

variable {φ₁ φ₂ : FTy} {M K N : Nat}

/-- Rows by columns: entry `(r, c)` is `∑ k, x (r, k) · w (k, c)`. -/
def rowsByCols (x : FVec Ideal ⟨2, ![M, K]⟩ φ₁) (w : FVec Ideal ⟨2, ![K, N]⟩ φ₂) : FVec Ideal ⟨2, ![M, N]⟩ .f32 :=
  fun i => ∑ k : Fin K, x (ix2 (n0 := M) (n1 := K) (i 0) k) * w (ix2 (n0 := K) (n1 := N) k (i 1))

theorem rowsByCols_apply (x : FVec Ideal ⟨2, ![M, K]⟩ φ₁) (w : FVec Ideal ⟨2, ![K, N]⟩ φ₂) (i : (⟨2, ![M, N]⟩ : Shape).Idx) :
    rowsByCols x w i = ∑ k : Fin K, x (ix2 (n0 := M) (n1 := K) (i 0) k) * w (ix2 (n0 := K) (n1 := N) k (i 1)) := rfl

/-- With the plain dimension numbers the left operand is read at (row of the result, contraction position). -/
theorem plain_lhsIdx (j : (⟨2, ![M, N]⟩ : Shape).Idx) (k : Fin K) :
    (DotDims.plain M K N).lhsIdx j ((contrEquiv1 (DotDims.plain M K N) K rfl rfl).symm k) = ix2 (n0 := M) (n1 := K) (j 0) k := by
  funext a; apply Fin.ext
  match a with
  | ⟨0, _⟩ => rfl
  | ⟨1, _⟩ => exact ((DotDims.plain M K N).lhsIdx_val_of_single rfl j _).trans (contrEquiv1_symm_val _ K rfl rfl k)

/-- … and the right operand at (contraction position, column of the result). -/
theorem plain_rhsIdx (j : (⟨2, ![M, N]⟩ : Shape).Idx) (k : Fin K) :
    (DotDims.plain M K N).rhsIdx j ((contrEquiv1 (DotDims.plain M K N) K rfl rfl).symm k) = ix2 (n0 := K) (n1 := N) k (j 1) := by
  funext a; apply Fin.ext
  match a with
  | ⟨0, _⟩ => exact ((DotDims.plain M K N).rhsIdx_val_of_single rfl j _).trans (contrEquiv1_symm_val _ K rfl rfl k)
  | ⟨1, _⟩ => rfl

/-- The sum over the contraction index of the operands' products, read at the operands' indices, is the sum over
    `k` of `x (r, k) · w (k, c)`. -/
theorem sum_plain (x : FVec Ideal ⟨2, ![M, K]⟩ φ₁) (w : FVec Ideal ⟨2, ![K, N]⟩ φ₂) (j : (⟨2, ![M, N]⟩ : Shape).Idx) :
    (∑ q : (DotDims.plain M K N).contr.Idx, x ((DotDims.plain M K N).lhsIdx j q) * w ((DotDims.plain M K N).rhsIdx j q))
      = rowsByCols x w j :=
  (Equiv.sum_comp (contrEquiv1 (DotDims.plain M K N) K rfl rfl).symm
      (fun q => x ((DotDims.plain M K N).lhsIdx j q) * w ((DotDims.plain M K N).rhsIdx j q))).symm.trans
    (Finset.sum_congr rfl fun k _ =>
      congrArg₂ (fun a b => x a * w b) (plain_lhsIdx j k) (plain_rhsIdx j k))

/-- A matrix unit's product into the zero accumulator is the product rows by columns. -/
theorem matmul_zero_plain (prec : Option ContractPrecision) (x : FVec Ideal ⟨2, ![M, K]⟩ φ₁) (w : FVec Ideal ⟨2, ![K, N]⟩ φ₂) :
    FloatOps.matmul (DotDims.plain M K N) prec x w (constant ⟨2, ![M, N]⟩ .f32 0x00000000#32) = rowsByCols x w :=
  funext fun j => (Ideal.matmul_constant_zero_apply (DotDims.plain M K N) prec x w j).trans (sum_plain x w j)

/-- The host's general dot product with the same dimension numbers is the same product, whatever its schedule. -/
theorem dotGeneral_plain (prec : Option ContractPrecision) (sched : HostSchedule) (x : FVec Ideal ⟨2, ![M, K]⟩ φ₁)
    (w : FVec Ideal ⟨2, ![K, N]⟩ φ₂) :
    FloatOps.dotGeneral (DotDims.plain M K N) prec sched x w = rowsByCols x w :=
  funext fun j => (Ideal.dotGeneral_apply (DotDims.plain M K N) prec sched x w j).trans (sum_plain x w j)

/-- Rows `e r` of a product are the product of rows `e r` of the left operand: if `xb (r, k) = x (e r, k)` then
    `(xb · w) (r, c) = (x · w) (e r, c)`. -/
theorem rowsByCols_rows {B : Nat} (x : FVec Ideal ⟨2, ![M, K]⟩ φ₁) (w : FVec Ideal ⟨2, ![K, N]⟩ φ₂)
    (xb : FVec Ideal ⟨2, ![B, K]⟩ φ₁) (e : Fin B → Fin M)
    (hxb : ∀ (r : Fin B) (k : Fin K), xb (ix2 (n0 := B) (n1 := K) r k) = x (ix2 (n0 := M) (n1 := K) (e r) k))
    (j : (⟨2, ![B, N]⟩ : Shape).Idx) :
    rowsByCols xb w j = rowsByCols x w (ix2 (n0 := M) (n1 := N) (e (j 0)) (j 1)) :=
  Finset.sum_congr rfl fun k _ =>
    congrArg (fun a => a * w (ix2 (n0 := K) (n1 := N) k (j 1))) (hxb (j 0) k)

end Idealize.ShloMosaic.PlainProduct

end
-- ==== Proof.LibLayout.lean ====
/-
  Layout operations read at coordinates, for shapes the library's own collection does not cover:
  a vector turned into a column, a column repeated along its unit axis, and the two reshapes between a
  three-axis array and the two-axis array whose rows are the pairs of its first two coordinates.
  Each lemma names the operand's index by coordinates, so that it applies by unification.
-/
import Idealize.ShloMosaic.Lib.Pipeline.Value
import Idealize.ShloMosaic.Lib.ValueIdx

namespace Cert.LibLayout

open Idealize.ShloMosaic Idealize.ShloMosaic.ValueIdx

variable {α : Type}

/-- A vector of length `a` cast to a column `[a, 1]` reads, at `(i, u)`, the vector at `i`: the row-major
    position of `(i, u)` is `i · 1 + u = i`, the unit coordinate being zero. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` broadcast to `[a, b]` reads, at `(i, j)`, the column's entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- An array `[a, b, c]` reshaped to `[n, c]` with `n = a · b` reads, at row `r = p · b + q` and column `z`,
    the array at `(p, q, z)`: both have the row-major position `(p · b + q) · c + z`. -/
theorem shapeCast_abc_nc_apply {a b c n : ℕ} (x : (⟨3, ![a, b, c]⟩ : Shape).Idx → α)
    (h : (⟨3, ![a, b, c]⟩ : Shape).ShapeCasts ⟨2, ![n, c]⟩) (p : Fin a) (q : Fin b) (z : Fin c) (r : Fin n)
    (hr : r.val = p.val * b + q.val) : shapeCast ⟨2, ![n, c]⟩ x h (ix2 r z) = x (ix3 p q z) :=
  shapeCast_apply x h _ _ (by
    rw [Shape.rowMajor_val_three, Shape.rowMajor_val_two]
    show (p.val * b + q.val) * c + z.val = r.val * c + z.val
    rw [hr])

/-- The reshape back: `[n, c]` reshaped to `[a, b, c]` reads, at `(p, q, z)`, row `r = p · b + q` at column `z`. -/
theorem shapeCast_nc_abc_apply {a b c n : ℕ} (x : (⟨2, ![n, c]⟩ : Shape).Idx → α)
    (h : (⟨2, ![n, c]⟩ : Shape).ShapeCasts ⟨3, ![a, b, c]⟩) (p : Fin a) (q : Fin b) (z : Fin c) (r : Fin n)
    (hr : r.val = p.val * b + q.val) : shapeCast ⟨3, ![a, b, c]⟩ x h (ix3 p q z) = x (ix2 r z) :=
  shapeCast_apply x h _ _ (by
    rw [Shape.rowMajor_val_two, Shape.rowMajor_val_three]
    show r.val * c + z.val = (p.val * b + q.val) * c + z.val
    rw [hr])

end Cert.LibLayout
-- ==== Proof.StepLaw.lean ====
/-
  One tile of the attention kernel's body, read entry by entry, and the law of one tile.

  The body keeps a running maximum m, a running sum l of exponentials and a running weighted sum acc, one row per
  query. For a tile of 512 key positions it forms the scores s (minus the distance of the two points plus the Gumbel
  noise, times the reciprocal of the temperature), raises the maximum to m' = max m (max of the row of s), rescales by
  exp (m - m'), and adds the tile's exp (s - m') to l and the tile's exp (s - m') against the values to acc.
  Each value the body stores is read here at explicit coordinates; together they are one step of the block-by-block
  state of the specification: if the three arrays hold the state after si tiles and the loaded blocks are tile si of
  the argument arrays, the stored arrays hold the state after si + 1 tiles. The arrays start at (-∞, 0, 0), the state
  after no tiles, and the result tile is the weighted sum divided by the sum of exponentials.
-/
import proofs.«134700_j89034672046362_2_alg».proof.Proof.Gen.KernelIdeal.Skeleton
import proofs.«134700_j89034672046362_2_alg».proof.Proof.Spec
import proofs.«134700_j89034672046362_2_alg».proof.Proof.LibOnlineSoftmax
import proofs.«134700_j89034672046362_2_alg».proof.Proof.LibRows
import proofs.«134700_j89034672046362_2_alg».proof.Proof.LibPlainProduct
import proofs.«134700_j89034672046362_2_alg».proof.Proof.LibLayout
import Idealize.ShloMosaic.Lib.ValueIdx
import Idealize.ShloMosaic.Lib.Pipeline.Value
import Idealize.ShloMosaic.Lib.ValueLayout
import Idealize.ShloMosaic.PureOps.Ideal.Laws
import Idealize.ShloMosaic.PureOps.IdealRules

noncomputable section

namespace Cert.Attn

open Cert.KernelIdeal Cert.KernelIdeal.Gen Idealize.ShloMosaic Idealize.ShloMosaic.ValueIdx

variable [Cert.KernelIdeal.Facts]

/-- The temperature's reciprocal, as the kernel names it, is the specification's. -/
theorem invT_named : Named.named (F := Ideal) Cert.KernelIdeal.κ "inv_temp" (φ := .f32) 0x40A00000#32 = invT :=
  IdealRules.named_const.ideal_named_scalar _ _ _ _ rfl

/-- The word of minus infinity. -/
theorem negInf_word : Ideal.ofBits .f32 0xFF800000#32 = (⊥ : EReal) := by
  simp [Ideal.ofBits, Ideal.ieee]

/-- The absolute value of an array, at an index. -/
theorem absf_vec_apply {s : Shape} (a : FVec Ideal s .f32) (i : s.Idx) : absf a i = max (a i) (-(a i)) := rfl
/-- The logarithm of an array, at an index. -/
theorem log_vec_apply {s : Shape} (a : FVec Ideal s .f32) (i : s.Idx) : log a i = Ideal.log (a i) := rfl
/-- The exponential of an array, at an index. -/
theorem exp_vec_apply {s : Shape} (a : FVec Ideal s .f32) (i : s.Idx) : exp a i = Ideal.exp (a i) := rfl
/-- A scalar constant is the value of its word. -/
theorem scalar_ofBits (b : BitVec 32) : Scalar.ofBits (F := Ideal) .f32 b = Ideal.ofBits .f32 b := rfl

/-- The scores of one tile, entry by entry. -/
theorem pay8_apply (x1 : Vec Ideal S1536x1 .f32) (x0 : Vec Ideal S1x512 .f32) (x2 : Vec Ideal S1x1536x512 .f32)
    (r : Fin 1536) (k : Fin 512) :
    k0_pay8 (F := Ideal) x1 x0 x2 (ix2 r k)
      = score (x0 (ix2 (0 : Fin 1) k)) (x1 (ix2 r (0 : Fin 1))) (x2 (ix3 (0 : Fin 1) r k)) := by
  unfold k0_pay8
  simp only [mulf_apply, addf_apply, subf_apply, broadcast_apply, absf_vec_apply, log_vec_apply, scalar_ofBits,
    shapeCast_self, LibLayout.broadcastTo_a1_ab_apply, broadcastTo_1b_ab_apply, shapeCast_1ab_ab_apply,
    Ideal.ofBits_zero_f32, zero_sub, invT_named]
  rfl

/-- The lane maximum of a tile of scores at row r, from minus infinity: the block's maximum. -/
theorem rowMax_blockMax (x : FVec Ideal S1536x512 .f32) (h : S1536x512.Reduces [(1 : Fin 2)] S1536) (hφ : FKind.Formats FTy.f32)
    (hacc : (0xFF800000#32 : BitVec FTy.f32.bits) = FKind.maximumf.neutral .f32 hφ) (r : Fin 1536) :
    multiReduction .maximumf [(1 : Fin 2)] S1536 x 0xFF800000#32 h hφ hacc (ix1 r)
      = LibOnlineSoftmax.blockMax (fun k : Fin 512 => x (ix2 r k)) :=
  (LibRows.rowMax_apply x _ h hφ hacc r).trans (by rw [negInf_word]; rfl)

/-- The lane sum of a tile at row r. -/
theorem rowSum_tile (x : FVec Ideal S1536x512 .f32) (h : S1536x512.Reduces [(1 : Fin 2)] S1536) (hφ : FKind.Formats FTy.f32)
    (hacc : (0x00000000#32 : BitVec FTy.f32.bits) = FKind.add.neutral .f32 hφ) (r : Fin 1536) :
    multiReduction .add [(1 : Fin 2)] S1536 x 0x00000000#32 h hφ hacc (ix1 r) = ∑ k : Fin 512, x (ix2 r k) :=
  LibRows.rowSum_apply x _ h hφ hacc r

/-- The new running maximum. -/
theorem pay9_apply (x1 : Vec Ideal S1536x1 .f32) (x0 : Vec Ideal S1x512 .f32) (x2 : Vec Ideal S1x1536x512 .f32)
    (mv : Vec Ideal S1536x1 .f32) (r : Fin 1536) :
    k0_pay9 (F := Ideal) x1 x0 x2 mv (ix2 r (0 : Fin 1))
      = max (mv (ix2 r (0 : Fin 1))) (LibOnlineSoftmax.blockMax fun k : Fin 512 => k0_pay8 (F := Ideal) x1 x0 x2 (ix2 r k)) := by
  unfold k0_pay9
  refine congrArg (max (mv (ix2 r (0 : Fin 1)))) ?_
  exact (LibLayout.shapeCast_a_a1_apply _ _ r (0 : Fin 1)).trans (rowMax_blockMax _ _ _ _ r)

/-- The rescaling factor. -/
theorem pay10_apply (x1 : Vec Ideal S1536x1 .f32) (x0 : Vec Ideal S1x512 .f32) (x2 : Vec Ideal S1x1536x512 .f32)
    (mv : Vec Ideal S1536x1 .f32) (r : Fin 1536) :
    k0_pay10 (F := Ideal) x1 x0 x2 mv (ix2 r (0 : Fin 1))
      = Ideal.exp (mv (ix2 r (0 : Fin 1)) - k0_pay9 (F := Ideal) x1 x0 x2 mv (ix2 r (0 : Fin 1))) := by
  unfold k0_pay10
  rfl

/-- The tile's exponentials against the new maximum. -/
theorem pay11_apply (x1 : Vec Ideal S1536x1 .f32) (x0 : Vec Ideal S1x512 .f32) (x2 : Vec Ideal S1x1536x512 .f32)
    (mv : Vec Ideal S1536x1 .f32) (r : Fin 1536) (k : Fin 512) :
    k0_pay11 (F := Ideal) x1 x0 x2 mv (ix2 r k)
      = Ideal.exp (k0_pay8 (F := Ideal) x1 x0 x2 (ix2 r k) - k0_pay9 (F := Ideal) x1 x0 x2 mv (ix2 r (0 : Fin 1))) := by
  unfold k0_pay11
  simp only [exp_vec_apply, subf_apply, LibLayout.broadcastTo_a1_ab_apply]

/-- The new running sum. -/
theorem pay1_apply (a : FVec Ideal S1536x1 .f32) (p : FVec Ideal S1536x512 .f32) (lv : Vec Ideal S1536x1 .f32) (r : Fin 1536) :
    k0_pay1 (F := Ideal) a p lv (ix2 r (0 : Fin 1))
      = a (ix2 r (0 : Fin 1)) * lv (ix2 r (0 : Fin 1)) + ∑ k : Fin 512, p (ix2 r k) := by
  unfold k0_pay1
  rw [shapeCast_self]
  refine congrArg (a (ix2 r (0 : Fin 1)) * lv (ix2 r (0 : Fin 1)) + ·) ?_
  exact (LibLayout.shapeCast_a_a1_apply _ _ r (0 : Fin 1)).trans (rowSum_tile _ _ _ _ r)

/-- The stored running maximum is the new one. -/
theorem pay3_eq (m : FVec Ideal S1536x1 .f32) : k0_pay3 (F := Ideal) m = m := by
  unfold k0_pay3
  exact shapeCast_self _ _

/-- The result tile: the weighted sum over the sum of exponentials. -/
theorem out_apply (av : Vec Ideal S1536x1024 .f32) (lv : Vec Ideal S1536x1 .f32) (r : Fin 1536) (f : Fin 1024) :
    k0_pay4 (F := Ideal) av lv (ix3 (0 : Fin 1) r f) = Ideal.div (av (ix2 r f)) (lv (ix2 r (0 : Fin 1))) := by
  unfold k0_pay4
  simp only [shapeCast_ab_1ab_apply, divf_apply, LibLayout.broadcastTo_a1_ab_apply]

/-- The kernel's product is the plain one: rows of the left operand against columns of the right. -/
theorem matmul_tile (p : FVec Ideal S1536x512 .f32) (w : FVec Ideal S512x1024 .f32) :
    matmul dot_S1536x512_S512x1024_S1536x1024_1_0_0_1_n_n (some .fp32) p w (constant S1536x1024 .f32 0x00000000#32)
      = PlainProduct.rowsByCols p w :=
  PlainProduct.matmul_zero_plain (M := 1536) (K := 512) (N := 1024) (some .fp32) p w

/-- The new running weighted sum. -/
theorem pay2_apply (a : FVec Ideal S1536x1 .f32) (p : FVec Ideal S1536x512 .f32) (x3 : Vec Ideal S1x512x1024 .f32)
    (av : Vec Ideal S1536x1024 .f32) (r : Fin 1536) (f : Fin 1024) :
    k0_pay2 (F := Ideal) a p x3 av (ix2 r f)
      = a (ix2 r (0 : Fin 1)) * av (ix2 r f) + ∑ k : Fin 512, p (ix2 r k) * x3 (ix3 (0 : Fin 1) k f) := by
  unfold k0_pay2
  rw [shapeCast_self]
  refine congrArg₂ (· + ·) ?_ ?_
  · exact congrArg (· * av (ix2 r f)) (LibLayout.broadcastTo_a1_ab_apply _ _ r f)
  · refine (congrFun (matmul_tile p _) (ix2 r f)).trans ?_
    refine (PlainProduct.rowsByCols_apply _ _ _).trans ?_
    exact Finset.sum_congr rfl fun k _ => congrArg (p (ix2 r k) * ·) (shapeCast_1ab_ab_apply x3 _ k f)

/-- The three scratch arrays hold the block-by-block state of batch b after n tiles. -/
def Holds (feat : SFeat.Idx → EReal) (fixed : SFix.Idx → EReal) (flex : SFlex.Idx → EReal) (u : SU.Idx → EReal) (b : Fin 32) (n : ℕ)
    (mv lv : Vec Ideal S1536x1 .f32) (av : Vec Ideal S1536x1024 .f32) : Prop :=
  ∀ (r : Fin 1536) (f : Fin 1024),
    mv (ix2 r (0 : Fin 1)) = (rowState fixed flex u feat b r f n).1
      ∧ lv (ix2 r (0 : Fin 1)) = (rowState fixed flex u feat b r f n).2.1
      ∧ av (ix2 r f) = (rowState fixed flex u feat b r f n).2.2

/-- Before the first tile the arrays hold minus infinity, zero and zero: the state after no tiles. -/
theorem init_holds (feat : SFeat.Idx → EReal) (fixed : SFix.Idx → EReal) (flex : SFlex.Idx → EReal) (u : SU.Idx → EReal) (b : Fin 32) :
    Holds feat fixed flex u b 0 (k0_pay5 (F := Ideal)) (k0_pay6 (F := Ideal)) (k0_pay7 (F := Ideal)) := by
  intro r f
  unfold k0_pay5 k0_pay6 k0_pay7
  simp only [shapeCast_self, broadcast_apply, scalar_ofBits, Ideal.ofBits_zero_f32, negInf_word]
  exact ⟨rfl, rfl, rfl⟩

/-- One tile: if the arrays hold the state after si tiles and the four loaded blocks are tile si of the argument arrays,
    the stored arrays hold the state after si + 1 tiles. -/
theorem step_holds (feat : SFeat.Idx → EReal) (fixed : SFix.Idx → EReal) (flex : SFlex.Idx → EReal) (u : SU.Idx → EReal)
    (b : Fin 32) (si : ℕ)
    (x0 : Vec Ideal S1x512 .f32) (x1 : Vec Ideal S1536x1 .f32) (x2 : Vec Ideal S1x1536x512 .f32) (x3 : Vec Ideal S1x512x1024 .f32)
    (h0 : ∀ k : Fin 512, x0 (ix2 (0 : Fin 1) k) = fixed (ix3 (0 : Fin 1) (tilePos si k) (0 : Fin 1)))
    (h1 : ∀ r : Fin 1536, x1 (ix2 r (0 : Fin 1)) = flex (ix3 (0 : Fin 1) r (0 : Fin 1)))
    (h2 : ∀ (r : Fin 1536) (k : Fin 512), x2 (ix3 (0 : Fin 1) r k) = u (ix3 b r (tilePos si k)))
    (h3 : ∀ (k : Fin 512) (f : Fin 1024), x3 (ix3 (0 : Fin 1) k f) = feat (ix3 b (tilePos si k) f))
    (mv lv : Vec Ideal S1536x1 .f32) (av : Vec Ideal S1536x1024 .f32) (H : Holds feat fixed flex u b si mv lv av) :
    Holds feat fixed flex u b (si + 1) (k0_pay3 (F := Ideal) (k0_pay9 (F := Ideal) x1 x0 x2 mv))
      (k0_pay1 (F := Ideal) (k0_pay10 (F := Ideal) x1 x0 x2 mv) (k0_pay11 (F := Ideal) x1 x0 x2 mv) lv)
      (k0_pay2 (F := Ideal) (k0_pay10 (F := Ideal) x1 x0 x2 mv) (k0_pay11 (F := Ideal) x1 x0 x2 mv) x3 av) := by
  intro r f
  obtain ⟨hm, hl, ha⟩ := H r f
  have hs : ∀ k : Fin 512, k0_pay8 (F := Ideal) x1 x0 x2 (ix2 r k) = tiles (scoreRow fixed flex u b r) si k := fun k => by
    rw [pay8_apply, h0, h1, h2]
    rfl
  have hd : ∀ k : Fin 512, x3 (ix3 (0 : Fin 1) k f) = tiles (featCol feat b f) si k := fun k => h3 k f
  have h9 : k0_pay9 (F := Ideal) x1 x0 x2 mv (ix2 r (0 : Fin 1))
      = max (rowState fixed flex u feat b r f si).1 (LibOnlineSoftmax.blockMax (tiles (scoreRow fixed flex u b r) si)) := by
    rw [pay9_apply, hm, funext hs]
  have hst : rowState fixed flex u feat b r f (si + 1)
      = LibOnlineSoftmax.step (tiles (scoreRow fixed flex u b r) si) (tiles (featCol feat b f) si)
          (rowState fixed flex u feat b r f si) := rfl
  rw [hst]
  refine ⟨?_, ?_, ?_⟩
  · rw [pay3_eq, h9]
    rfl
  · rw [pay1_apply, pay10_apply, h9, hm, hl]
    simp only [pay11_apply, h9, hs]
    rfl
  · rw [pay2_apply, pay10_apply, h9, hm, ha]
    simp only [pay11_apply, h9, hs, hd]
    rfl

end Cert.Attn

end
-- ==== Proof.Blocks.lean ====
/-
  What the kernel's five windows read and cover, entry by entry.

  The grid has 128 points, 32 batches by 4 tiles of 512 key positions, the tile moving fastest: point `t` works on
  batch `t / 4` and tile `t % 4`. At point `t` the input windows hold: tile `t % 4` of the fixed noise; the whole
  flexible noise; tile `t % 4` of every row of batch `t / 4` of the uniform samples; the rows of tile `t % 4` of batch
  `t / 4` of the values. The two noise arrays reach the kernel reshaped twice by the host; a reshape keeps the row-major
  position, so both read the argument at the same position. The output window's block at point `t` is batch `t / 4` of
  the result, written back at the last tile of each batch, and those 32 write-backs cover the result.

  A block's coordinate on an axis is always the block index times the block's extent plus the coordinate inside the
  block; the block indices are decided once over the grid.
-/
import proofs.«134700_j89034672046362_2_alg».proof.Proof.Gen.KernelIdeal.Frame
import proofs.«134700_j89034672046362_2_alg».proof.Proof.Spec
import proofs.«134700_j89034672046362_2_alg».proof.Proof.LibLayout
import Idealize.ShloMosaic.Lib.Pipeline.Value
import Idealize.ShloMosaic.Lib.ValueIdx
import Idealize.ShloMosaic.Lib.ValueLayout
import Idealize.ShloMosaic.Lib.StableHlo.Run

noncomputable section

namespace Cert.Attn

open Cert.KernelIdeal Cert.KernelIdeal.Gen Idealize.ShloMosaic Idealize.ShloMosaic.TcCoe Idealize.ShloMosaic.ValueIdx

variable {F : FTy → Type} [FloatOps F] [Named F]
variable (m : (ℓ : Loc nD τ sig) → Buf (Elt F) ℓ)

/-- The batch a grid point works on: the grid is 32 batches by 4 tiles, the tile moving fastest. -/
def batchOf (t : Fin cfg0.N) : Fin 32 := ⟨t.val / 4, by have := t.isLt; have hN : cfg0.N = 128 := N_0; omega⟩

theorem batchOf_val (t : Fin cfg0.N) : (batchOf t).val = t.val / 4 := rfl

/-! ## The block index of every window at every grid point, decided once over the grid -/

theorem idx_facts0 : ∀ t : Fin cfg0.N, win0_0.index t (0 : Fin 2) = 0 ∧ win0_0.index t (1 : Fin 2) = t.val % 4 :=
  (by decide +kernel : ∀ t : Fin grid0.N, _)
theorem idx_facts1 : ∀ t : Fin cfg0.N, win0_1.index t (0 : Fin 2) = 0 ∧ win0_1.index t (1 : Fin 2) = 0 :=
  (by decide +kernel : ∀ t : Fin grid0.N, _)
theorem idx_facts2 : ∀ t : Fin cfg0.N, win0_2.index t (0 : Fin 3) = t.val / 4 ∧ win0_2.index t (1 : Fin 3) = 0
    ∧ win0_2.index t (2 : Fin 3) = t.val % 4 :=
  (by decide +kernel : ∀ t : Fin grid0.N, _)
theorem idx_facts3 : ∀ t : Fin cfg0.N, win0_3.index t (0 : Fin 3) = t.val / 4 ∧ win0_3.index t (1 : Fin 3) = t.val % 4
    ∧ win0_3.index t (2 : Fin 3) = 0 :=
  (by decide +kernel : ∀ t : Fin grid0.N, _)
theorem idx_facts4 : ∀ t : Fin cfg0.N, win0_4.index t (0 : Fin 3) = t.val / 4 ∧ win0_4.index t (1 : Fin 3) = 0
    ∧ win0_4.index t (2 : Fin 3) = 0 :=
  (by decide +kernel : ∀ t : Fin grid0.N, _)

/-! ## The two host-written arrays: each is its argument reshaped twice, so it reads the argument at the same position -/

/-- A row of 2048 entries stored as `[1, 2048, 1]`, flattened and then given a unit leading axis, reads at `(0, j)`
    the entry `(0, j, 0)`: all three positions are `j`. -/
theorem row_of_column_apply {α : Type} (x : S1x2048x1.Idx → α) (j : Fin 2048) :
    shapeCast S1x2048 (shapeCast S2048 x shapeCasts_S1x2048x1_S2048) shapeCasts_S2048_S1x2048 (ix2 (0 : Fin 1) j)
      = x (ix3 (0 : Fin 1) j (0 : Fin 1)) := by
  rw [shapeCast_apply _ shapeCasts_S2048_S1x2048 (ix2 (0 : Fin 1) j) (ix1 j) (by
    rw [Shape.rowMajor_val_one, Shape.rowMajor_val_two]
    show j.val = 0 * 2048 + j.val
    omega)]
  exact shapeCast_apply _ shapeCasts_S1x2048x1_S2048 (ix1 j) (ix3 (0 : Fin 1) j (0 : Fin 1)) (by
    rw [Shape.rowMajor_val_three, Shape.rowMajor_val_one]
    show (0 * 2048 + j.val) * 1 + 0 = j.val
    omega)

/-- A column of 1536 entries stored as `[1, 1536, 1]`, flattened and then given a unit trailing axis, reads at `(r, 0)`
    the entry `(0, r, 0)`. -/
theorem column_of_column_apply {α : Type} (x : S1x1536x1.Idx → α) (r : Fin 1536) :
    shapeCast S1536x1 (shapeCast S1536 x shapeCasts_S1x1536x1_S1536) shapeCasts_S1536_S1536x1 (ix2 r (0 : Fin 1))
      = x (ix3 (0 : Fin 1) r (0 : Fin 1)) := by
  rw [shapeCast_apply _ shapeCasts_S1536_S1536x1 (ix2 r (0 : Fin 1)) (ix1 r) (by
    rw [Shape.rowMajor_val_one, Shape.rowMajor_val_two]
    show r.val = r.val * 1 + 0
    omega)]
  exact shapeCast_apply _ shapeCasts_S1x1536x1_S1536 (ix1 r) (ix3 (0 : Fin 1) r (0 : Fin 1)) (by
    rw [Shape.rowMajor_val_three, Shape.rowMajor_val_one]
    show (0 * 1536 + r.val) * 1 + 0 = r.val
    omega)

/-- The first window's array when the kernel starts: the fixed noise reshaped twice. -/
theorem V_main_v1 (c : Dev nD) : (V m c main_v1 : S1x2048.Idx → Elt F .f32)
    = shapeCast S1x2048 (shapeCast S2048 (m ((c : Thread nD τ).loc main_arg1)) shapeCasts_S1x2048x1_S2048) shapeCasts_S2048_S1x2048 := by
  dsimp only [Gen.V, Gen.hostOps0]; after_results; rfl

/-- The second window's array when the kernel starts: the flexible noise reshaped twice. -/
theorem V_main_v3 (c : Dev nD) : (V m c main_v3 : S1536x1.Idx → Elt F .f32)
    = shapeCast S1536x1 (shapeCast S1536 (m ((c : Thread nD τ).loc main_arg2)) shapeCasts_S1x1536x1_S1536) shapeCasts_S1536_S1536x1 := by
  dsimp only [Gen.V, Gen.hostOps0]; after_results; rfl

/-! ## What each input window's block holds, entry by entry -/

/-- Window 0 at point `t` holds tile `t % 4` of the fixed noise. -/
theorem iblk0_apply (c : Dev nD) (t : Fin cfg0.N) (k : Fin 512) :
    (iblk m c 0 t : Vec F S1x512 .f32) (ix2 (0 : Fin 1) k)
      = m ((c : Thread nD τ).loc main_arg1) (ix3 (0 : Fin 1) (tilePos (t.val % 4) k) (0 : Fin 1)) := by
  obtain ⟨e0, e1⟩ := idx_facts0 t
  have hk := k.isLt
  have hp := tilePos_val (t.val % 4) (Nat.mod_lt _ (by norm_num)) k
  have he : ((cfg0.win 0).blk t).view.emb (ix2 (0 : Fin 1) k) = ix2 (0 : Fin 1) (tilePos (t.val % 4) k) := by
    funext a
    apply Fin.ext
    match a with
    | ⟨0, _⟩ => show win0_0.index t (0 : Fin 2) * 1 + 1 * 0 = 0; rw [e0]
    | ⟨1, _⟩ => show win0_0.index t (1 : Fin 2) * 512 + 1 * k.val = (tilePos (t.val % 4) k).val; rw [e1, hp]; omega
  unfold iblk
  rw [View.read_apply]
  show V m c main_v1 _ = _
  rw [he, V_main_v1]
  exact row_of_column_apply _ _

/-- Window 1 holds the whole flexible noise at every point. -/
theorem iblk1_apply (c : Dev nD) (t : Fin cfg0.N) (r : Fin 1536) :
    (iblk m c 1 t : Vec F S1536x1 .f32) (ix2 r (0 : Fin 1))
      = m ((c : Thread nD τ).loc main_arg2) (ix3 (0 : Fin 1) r (0 : Fin 1)) := by
  obtain ⟨e0, e1⟩ := idx_facts1 t
  have he : ((cfg0.win 1).blk t).view.emb (ix2 r (0 : Fin 1)) = ix2 r (0 : Fin 1) := by
    funext a
    apply Fin.ext
    match a with
    | ⟨0, _⟩ => show win0_1.index t (0 : Fin 2) * 1536 + 1 * r.val = r.val; rw [e0]; omega
    | ⟨1, _⟩ => show win0_1.index t (1 : Fin 2) * 1 + 1 * 0 = 0; rw [e1]
  unfold iblk
  rw [View.read_apply]
  show V m c main_v3 _ = _
  rw [he, V_main_v3]
  exact column_of_column_apply _ _

/-- Window 2 at point `t` holds, for batch `t / 4`, tile `t % 4` of every row of uniform samples. -/
theorem iblk2_apply (c : Dev nD) (t : Fin cfg0.N) (r : Fin 1536) (k : Fin 512) :
    (iblk m c 2 t : Vec F S1x1536x512 .f32) (ix3 (0 : Fin 1) r k)
      = m ((c : Thread nD τ).loc main_arg3) (ix3 (batchOf t) r (tilePos (t.val % 4) k)) := by
  obtain ⟨e0, e1, e2⟩ := idx_facts2 t
  have hk := k.isLt
  have hp := tilePos_val (t.val % 4) (Nat.mod_lt _ (by norm_num)) k
  unfold iblk
  rw [View.read_apply]
  show V m c main_arg3 _ = _
  rw [V_main_arg3]
  congr 1
  funext a
  apply Fin.ext
  match a with
  | ⟨0, _⟩ => show win0_2.index t (0 : Fin 3) * 1 + 1 * 0 = t.val / 4; rw [e0]; omega
  | ⟨1, _⟩ => show win0_2.index t (1 : Fin 3) * 1536 + 1 * r.val = r.val; rw [e1]; omega
  | ⟨2, _⟩ => show win0_2.index t (2 : Fin 3) * 512 + 1 * k.val = (tilePos (t.val % 4) k).val; rw [e2, hp]; omega

/-- Window 3 at point `t` holds, for batch `t / 4`, the rows of tile `t % 4` of the values. -/
theorem iblk3_apply (c : Dev nD) (t : Fin cfg0.N) (k : Fin 512) (f : Fin 1024) :
    (iblk m c 3 t : Vec F S1x512x1024 .f32) (ix3 (0 : Fin 1) k f)
      = m ((c : Thread nD τ).loc main_arg0) (ix3 (batchOf t) (tilePos (t.val % 4) k) f) := by
  obtain ⟨e0, e1, e2⟩ := idx_facts3 t
  have hk := k.isLt
  have hp := tilePos_val (t.val % 4) (Nat.mod_lt _ (by norm_num)) k
  unfold iblk
  rw [View.read_apply]
  show V m c main_arg0 _ = _
  rw [V_main_arg0]
  congr 1
  funext a
  apply Fin.ext
  match a with
  | ⟨0, _⟩ => show win0_3.index t (0 : Fin 3) * 1 + 1 * 0 = t.val / 4; rw [e0]; omega
  | ⟨1, _⟩ => show win0_3.index t (1 : Fin 3) * 512 + 1 * k.val = (tilePos (t.val % 4) k).val; rw [e1, hp]; omega
  | ⟨2, _⟩ => show win0_3.index t (2 : Fin 3) * 1024 + 1 * f.val = f.val; rw [e2]; omega

/-! ## The output window: its block at a point is one batch of the result, and the flushing points cover the result -/

/-- Any array of the result's shape, read through the output window's block at point `t`, is its batch `t / 4`. -/
theorem blk4_read (t : Fin cfg0.N) (G : S32x1536x1024.Idx → Elt F .f32) (y : S1x1536x1024.Idx) :
    (((cfg0.win 4).blk t).view.read (Elt F) G : Vec F S1x1536x1024 .f32) y = G (ix3 (batchOf t) (y 1) (y 2)) := by
  obtain ⟨e0, e1, e2⟩ := idx_facts4 t
  have h0 : (y 0).val < 1 := (y 0).isLt
  rw [View.read_apply]
  refine congrArg G (funext fun a => Fin.ext ?_)
  match a with
  | ⟨0, _⟩ => show win0_4.index t (0 : Fin 3) * 1 + 1 * (y 0).val = t.val / 4; rw [e0]; omega
  | ⟨1, _⟩ => show win0_4.index t (1 : Fin 3) * 1536 + 1 * (y 1).val = (y 1).val; rw [e1]; omega
  | ⟨2, _⟩ => show win0_4.index t (2 : Fin 3) * 1024 + 1 * (y 2).val = (y 2).val; rw [e2]; omega

/-- An index of the result lies in the output block of point `t` iff each coordinate lies in the block's range on its axis. -/
theorem mem_blk4 (t : Fin cfg0.N) (i : S32x1536x1024.Idx) :
    i ∈ ((cfg0.win 4).blk t).view.set ↔ ∀ a : Fin 3, win0_4.index t a * S1x1536x1024.size a ≤ (i a).val ∧ (i a).val < win0_4.index t a * S1x1536x1024.size a + S1x1536x1024.size a := by
  show i ∈ ((View.whole main_v4).slice (win0_4.rect t)).set ↔ _
  rw [View.set_slice_whole, Rect.mem_set_unit]
  exact Iff.rfl

/-- Every index of the result is written back by some point: batch `b` by the last tile's point `4 b + 3`. -/
theorem cover4 (i : S32x1536x1024.Idx) :
    ∃ t : Fin cfg0.N, (cfg0.win 4).flush t = true ∧ i ∈ ((cfg0.win 4).blk t).view.set := by
  have hN : cfg0.N = 128 := N_0
  have h0 : (i 0).val < 32 := (i 0).isLt
  have h1 : (i 1).val < 1536 := (i 1).isLt
  have h2 : (i 2).val < 1024 := (i 2).isLt
  have hlt : 4 * (i 0).val + 3 < cfg0.N := by omega
  obtain ⟨e0, e1, e2⟩ := idx_facts4 ⟨4 * (i 0).val + 3, hlt⟩
  have e0' : win0_4.index ⟨4 * (i 0).val + 3, hlt⟩ (0 : Fin 3) = (i 0).val := by rw [e0]; show (4 * (i 0).val + 3) / 4 = _; omega
  refine ⟨⟨4 * (i 0).val + 3, hlt⟩, (flush0_4 _).mpr (by show (4 * (i 0).val + 3) % 4 = 3; omega), ?_⟩
  rw [mem_blk4]
  intro a
  match a with
  | ⟨0, _⟩ => show win0_4.index _ (0 : Fin 3) * 1 ≤ (i 0).val ∧ (i 0).val < win0_4.index _ (0 : Fin 3) * 1 + 1; rw [e0']; omega
  | ⟨1, _⟩ => show win0_4.index _ (1 : Fin 3) * 1536 ≤ (i 1).val ∧ (i 1).val < win0_4.index _ (1 : Fin 3) * 1536 + 1536; rw [e1]; omega
  | ⟨2, _⟩ => show win0_4.index _ (2 : Fin 3) * 1024 ≤ (i 2).val ∧ (i 2).val < win0_4.index _ (2 : Fin 3) * 1024 + 1024; rw [e2]; omega

end Cert.Attn

end
-- ==== Proof.Invariant.lean ====
/-
  What the three carried scratch arrays hold after every grid point: the block-by-block state of the point's batch after
  the point's tile — by induction over the points, one step of the state per point.
-/
import proofs.«134700_j89034672046362_2_alg».proof.Proof.Gen.KernelIdeal.Value
import proofs.«134700_j89034672046362_2_alg».proof.Proof.Spec
import proofs.«134700_j89034672046362_2_alg».proof.Proof.Pieces
import proofs.«134700_j89034672046362_2_alg».proof.Proof.StepLaw
import proofs.«134700_j89034672046362_2_alg».proof.Proof.Blocks
import Idealize.ShloMosaic.Lib.Pipeline.Value
import Idealize.ShloMosaic.Lib.ValueIdx

set_option maxRecDepth 65536

noncomputable section

namespace Cert.Attn

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- The four argument arrays as core `c` holds them at launch. -/
abbrev aFeat (c : Dev nD) : SFeat.Idx → EReal := m ((c : Thread nD τ).loc main_arg0)
abbrev aFix (c : Dev nD) : SFix.Idx → EReal := m ((c : Thread nD τ).loc main_arg1)
abbrev aFlex (c : Dev nD) : SFlex.Idx → EReal := m ((c : Thread nD τ).loc main_arg2)
abbrev aU (c : Dev nD) : SU.Idx → EReal := m ((c : Thread nD τ).loc main_arg3)

/-- The first tile of a batch: the three arrays are reset, then take the tile in. -/
theorem first_tile (c : Dev nD) (t : Fin cfg0.N) (b : Fin 32) (hn : t.val = 4 * b.val) :
    Holds (aFeat m c) (aFix m c) (aFlex m c) (aU m c) b (0 + 1)
      (outsAt0 m c t.val t.isLt).2.1 (outsAt0 m c t.val t.isLt).2.2.1 (outsAt0 m c t.val t.isLt).2.2.2 := by
  have h0 : t.val % 4 = 0 := by omega
  have h1 : ¬t.val % 4 = 3 := by omega
  have hb : batchOf t = b := Fin.ext (by show t.val / 4 = b.val; omega)
  have hc0 : cond0_0 (grid0.coords t) := (hcond0_0 t).mpr h0
  have hc1 : ¬cond0_1 (grid0.coords t) := fun h => h1 ((hcond0_1 t).mp h)
  rw [outsAt0_A m c t h0 h1]
  dsimp only
  rw [sout_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (iblk m c 2 t) (iblk m c 3 t) hc0 hc1, sout_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (iblk m c 2 t) (iblk m c 3 t) hc0 hc1, sout_A_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (iblk m c 2 t) (iblk m c 3 t) hc0 hc1]
  exact step_holds (aFeat m c) (aFix m c) (aFlex m c) (aU m c) b 0 (iblk m c 0 t) (iblk m c 1 t) (iblk m c 2 t) (iblk m c 3 t)
    (fun k => by rw [iblk0_apply m c t k, h0]) (fun r => iblk1_apply m c t r)
    (fun r k => by rw [iblk2_apply m c t r k, hb, h0]) (fun k f => by rw [iblk3_apply m c t k f, hb, h0])
    _ _ _ (init_holds (aFeat m c) (aFix m c) (aFlex m c) (aU m c) b)

/-- A later tile of a batch: the three arrays take the tile in over what the point before left. -/
theorem next_tile (c : Dev nD) (t : Fin cfg0.N) (b : Fin 32) (si : ℕ) (hn : t.val = 4 * b.val + (si + 1)) (hsi : si + 1 < 4)
    (H : Holds (aFeat m c) (aFix m c) (aFlex m c) (aU m c) b (si + 1)
      (outsAt0 m c (t.val - 1) (Nat.lt_of_le_of_lt (Nat.sub_le _ _) t.isLt)).2.1
      (outsAt0 m c (t.val - 1) (Nat.lt_of_le_of_lt (Nat.sub_le _ _) t.isLt)).2.2.1
      (outsAt0 m c (t.val - 1) (Nat.lt_of_le_of_lt (Nat.sub_le _ _) t.isLt)).2.2.2) :
    Holds (aFeat m c) (aFix m c) (aFlex m c) (aU m c) b (si + 1 + 1)
      (outsAt0 m c t.val t.isLt).2.1 (outsAt0 m c t.val t.isLt).2.2.1 (outsAt0 m c t.val t.isLt).2.2.2 := by
  have h0 : ¬t.val % 4 = 0 := by omega
  have hm : t.val % 4 = si + 1 := by omega
  have hb : batchOf t = b := Fin.ext (by show t.val / 4 = b.val; omega)
  have hc0 : ¬cond0_0 (grid0.coords t) := fun h => h0 ((hcond0_0 t).mp h)
  have hstep := step_holds (aFeat m c) (aFix m c) (aFlex m c) (aU m c) b (si + 1) (iblk m c 0 t) (iblk m c 1 t) (iblk m c 2 t) (iblk m c 3 t)
    (fun k => by rw [iblk0_apply m c t k, hm]) (fun r => iblk1_apply m c t r)
    (fun r k => by rw [iblk2_apply m c t r k, hb, hm]) (fun k f => by rw [iblk3_apply m c t k f, hb, hm]) _ _ _ H
  by_cases h1 : t.val % 4 = 3
  · have hc1 : cond0_1 (grid0.coords t) := (hcond0_1 t).mpr h1
    rw [outsAt0_C m c t h0 h1]
    dsimp only
    rw [sout_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (iblk m c 2 t) (iblk m c 3 t) _ _ _ hc0 hc1, sout_C_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (iblk m c 2 t) (iblk m c 3 t) _ _ _ hc0 hc1, sout_C_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (iblk m c 2 t) (iblk m c 3 t) _ _ _ hc0 hc1]
    exact hstep
  · have hc1 : ¬cond0_1 (grid0.coords t) := fun h => h1 ((hcond0_1 t).mp h)
    rw [outsAt0_B m c t h0 h1]
    dsimp only
    rw [sout_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (iblk m c 2 t) (iblk m c 3 t) _ _ _ hc0 hc1, sout_B_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (iblk m c 2 t) (iblk m c 3 t) _ _ _ hc0 hc1, sout_B_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (iblk m c 2 t) (iblk m c 3 t) _ _ _ hc0 hc1]
    exact hstep

/-- After the point of tile `si` of batch `b` the three arrays hold the state after `si + 1` tiles. -/
theorem inv (c : Dev nD) : ∀ (n : ℕ) (h : n < cfg0.N) (b : Fin 32) (si : ℕ), n = 4 * b.val + si → si < 4 →
    Holds (aFeat m c) (aFix m c) (aFlex m c) (aU m c) b (si + 1)
      (outsAt0 m c n h).2.1 (outsAt0 m c n h).2.2.1 (outsAt0 m c n h).2.2.2 := by
  intro n
  induction n with
  | zero =>
    intro h b si hn hsi
    obtain rfl : si = 0 := by omega
    exact first_tile m c ⟨0, h⟩ b (by show 0 = 4 * b.val; omega)
  | succ n ih =>
    intro h b si hn hsi
    cases si with
    | zero => exact first_tile m c ⟨n + 1, h⟩ b (by show n + 1 = 4 * b.val; omega)
    | succ si =>
      exact next_tile m c ⟨n + 1, h⟩ b si (by show n + 1 = 4 * b.val + (si + 1); omega) hsi
        (ih (Nat.lt_of_succ_lt h) b si (by omega) (by omega))

/-- The last tile of a batch: the output block is the weighted sum after four tiles over the sum of exponentials after
    four tiles, entry by entry. -/
theorem last_point (c : Dev nD) (t : Fin cfg0.N) (b : Fin 32) (hn : t.val = 4 * b.val + 3) (r : Fin 1536) (f : Fin 1024) :
    (outsAt0 m c t.val t.isLt).1 (ix3 (0 : Fin 1) r f)
      = result (aFeat m c) (aFix m c) (aFlex m c) (aU m c) (ix3 b r f) := by
  have h0 : ¬t.val % 4 = 0 := by omega
  have h1 : t.val % 4 = 3 := by omega
  have hb : batchOf t = b := Fin.ext (by show t.val / 4 = b.val; omega)
  have hc0 : ¬cond0_0 (grid0.coords t) := fun h => h0 ((hcond0_0 t).mp h)
  have hc1 : cond0_1 (grid0.coords t) := (hcond0_1 t).mpr h1
  have H3 := inv m c (t.val - 1) (Nat.lt_of_le_of_lt (Nat.sub_le _ _) t.isLt) b 2 (by omega) (by norm_num)
  have hstep := step_holds (aFeat m c) (aFix m c) (aFlex m c) (aU m c) b (2 + 1) (iblk m c 0 t) (iblk m c 1 t) (iblk m c 2 t) (iblk m c 3 t)
    (fun k => by rw [iblk0_apply m c t k, h1]) (fun r => iblk1_apply m c t r)
    (fun r k => by rw [iblk2_apply m c t r k, hb, h1]) (fun k f => by rw [iblk3_apply m c t k f, hb, h1]) _ _ _ H3
  obtain ⟨-, hl, ha⟩ := hstep r f
  rw [outsAt0_C m c t h0 h1]
  dsimp only
  rw [out_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (iblk m c 0 t) (iblk m c 1 t) (iblk m c 2 t) (iblk m c 3 t) _ _ _ hc0 hc1, out_apply, hl, ha]
  rfl

end Cert.Attn

end
-- ==== Proof.Final.lean ====
/-
  From blocks to the array.

  The result array [32, 1536, 1024] is written one batch at a time: the grid has 128 points, point `t` works on batch
  `t / 4` and key tile `t % 4`, and the block [1, 1536, 1024] of batch `t / 4` is written back only at the last tile,
  `t % 4 = 3`. So if what the block's buffer holds after the last point of each batch `b` is batch `b` of a function `G`
  of the arguments, and these blocks cover the array, the array ends holding `G`; and the run's result is then `G`, with
  the arguments as they were.
-/
import proofs.«134700_j89034672046362_2_alg».proof.Proof.Gen.KernelIdeal.Value
import Idealize.ShloMosaic.Lib.Pipeline.Value
import Idealize.ShloMosaic.Lib.ValueIdx

noncomputable section

namespace Cert.Attn

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable {F : FTy → Type} [FloatOps F] [Named F]
variable (m : (ℓ : Loc nD τ sig) → Buf (Elt F) ℓ) (ρ : Dev nD → PrngReg)

/-- The array after the run, from the block's buffer after the last point of each batch: `hlast` says that buffer holds
    batch `b` of `G`, `hread` that the block of point `4b + 3` is batch `b` of the array, `hcover` that the blocks
    written back cover the array. -/
theorem final_of_last (c : Dev nD) (G : S32x1536x1024.Idx → Elt F .f32)
    (hlast : ∀ (t : Fin cfg0.N) (b : Fin 32), t.val = 4 * b.val + 3 → ∀ (r : Fin 1536) (f : Fin 1024),
      (outsAt0 m c t.val t.isLt).1 (ix3 (0 : Fin 1) r f) = G (ix3 b r f))
    (hread : ∀ (t : Fin cfg0.N) (b : Fin 32), t.val = 4 * b.val + 3 → ∀ (H : S32x1536x1024.Idx → Elt F .f32) (y : S1x1536x1024.Idx),
      (((cfg0.win 4).blk t).view.read (Elt F) H : Vec F S1x1536x1024 .f32) y = H (ix3 b (y 1) (y 2)))
    (hcover : ∀ i : S32x1536x1024.Idx, ∃ t : Fin cfg0.N, (cfg0.win 4).flush t = true ∧ i ∈ ((cfg0.win 4).blk t).view.set) :
    (dats m 0 c).arrAt 4 cfg0.N = G := by
  refine (dats m 0 c).arrAt_eq_of_cover 4 G (fun t hf => ?_) hcover
  -- a point that writes back is the last of its batch's four
  have h3 : t.val % 4 = 3 := (flush0_4 t).mp hf
  have hN : t.val < 128 := lt_of_lt_of_eq t.isLt (show cfg0.N = 128 from N_0)
  have hb : t.val / 4 < 32 := by omega
  have ht : t.val = 4 * (⟨t.val / 4, hb⟩ : Fin 32).val + 3 := by show t.val = 4 * (t.val / 4) + 3; omega
  rw [flushed4]
  funext y
  refine Eq.trans ?_ (hread t ⟨t.val / 4, hb⟩ ht G y).symm
  refine Eq.trans ?_ (hlast t ⟨t.val / 4, hb⟩ ht (y 1) (y 2))
  -- the block is whole: what is written back at `y` is the staging buffer at `y`, and `y`'s leading coordinate is 0
  show (outsAt0 m c t.val t.isLt).1 ((cfg0.win 4).xinj (grid0.coords t) y) = _
  have hy : ((cfg0.win 4).xinj (grid0.coords t) y : S1x1536x1024.Idx) = ix3 (0 : Fin 1) (y 1) (y 2) := by
    funext a
    apply Fin.ext
    match a with
    | ⟨0, _⟩ => show (y 0).val = 0; have h0 : (y 0).val < 1 := (y 0).isLt; omega
    | ⟨1, _⟩ => rfl
    | ⟨2, _⟩ => rfl
  exact congrArg (outsAt0 m c t.val t.isLt).1 hy

/-- The run with the result array named: the result is `G`, the four arguments are unchanged. -/
theorem run_of_final (G : (c : Dev nD) → S32x1536x1024.Idx → Elt F .f32)
    (hfin : ∀ c : Dev nD, (dats m 0 c).arrAt 4 cfg0.N = G c) :
    θ_run defs (onTc (τ := τ) (main (F := F))) ⟨m, fun _ => 0, ρ⟩ fun r => ∀ c : Dev nD,
      r.2.mem ((c : Thread nD τ).loc main_v4) = G c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (hfin c), (h c).2⟩) (run_blocks m ρ)

end Cert.Attn

end
-- ==== Proof.KernelRun.lean ====
/-
  The kernel's run, read: after it the result array holds, entry by entry, the weighted sum after four tiles over the
  sum of exponentials after four tiles, and the four argument arrays are as launched.
-/
import proofs.«134700_j89034672046362_2_alg».proof.Proof.Invariant
import proofs.«134700_j89034672046362_2_alg».proof.Proof.Final
import proofs.«134700_j89034672046362_2_alg».proof.Proof.Blocks

set_option maxRecDepth 65536

noncomputable section

namespace Cert.Attn

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The result array after the run: every batch's block is written back once, after the batch's last tile, and the
    blocks of the 32 batches cover the array. -/
theorem final (c : Dev nD) : (dats m 0 c).arrAt 4 cfg0.N = result (aFeat m c) (aFix m c) (aFlex m c) (aU m c) :=
  final_of_last m c (result (aFeat m c) (aFix m c) (aFlex m c) (aU m c))
    (fun t b hn r f => last_point m c t b hn r f)
    (fun t b hn H y => by
      have hb : batchOf t = b := Fin.ext (by show t.val / 4 = b.val; omega)
      rw [blk4_read t H y, hb])
    cover4

theorem kernel_run : θ_run defs (onTc (τ := τ) (main (F := Ideal))) ⟨m, fun _ => 0, ρ⟩ fun r => ∀ c : Dev nD,
      r.2.mem ((c : Thread nD τ).loc main_v4)
        = result (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  run_of_final m ρ (fun c => result (aFeat m c) (aFix m c) (aFlex m c) (aU m c)) (final m)

end Cert.Attn

end
-- ==== Proof.RefRead.lean ====
/-
  The reference program read at an index: each element of its result is the softmax of a row of scores weighted
  against a column of the values, in the whole-row form of the specification.

  The score at (b, r, j) is (-|flex r - fixed j| + g (u b r j)) over the temperature; the greatest entry of a row is a
  maximum taken from minus infinity over the 2048 key positions (and once more against minus infinity); each weight is
  the exponential of the score less the greatest entry, over the sum of them taken from zero; the result at (b, r, f)
  is the sum over j of the weight at j times the value at (b, j, f).
-/
import proofs.«134700_j89034672046362_2_alg».proof.Proof.Gen.ReferenceIdeal.Read
import proofs.«134700_j89034672046362_2_alg».proof.Proof.Spec
import Idealize.ShloMosaic.PureOps.Reduce
import Idealize.ShloMosaic.PureOps.Ideal.Laws
import Idealize.ShloMosaic.Lib.ValueIdx

noncomputable section

namespace Cert.Attn

open Idealize.ShloMosaic Idealize.ShloMosaic.ValueIdx Cert.ReferenceIdeal Cert.ReferenceIdeal.Gen Cert.ReferenceIdeal.Read

/-! ## The composed index maps are coordinates -/

/-- The query point read under the broadcasts and the reshape: row `r` of the column of query points. -/
theorem idx_flex (b : Fin 32) (r : Fin 1536) (j : Fin 2048) :
    idx_main_v0 (idx_main_v1 (idx_main_v4 (idx_main_v17 (ix3 b r j)))) = ix3 (0 : Fin 1) r (0 : Fin 1) := by
  funext a
  apply Fin.ext
  match a with
  | ⟨0, _⟩ => rfl
  | ⟨1, _⟩ =>
    have hr : r.val < 1536 := r.isLt
    show (0 * 1536 + r.val) / 1 % 1536 = r.val
    omega
  | ⟨2, _⟩ => rfl

/-- The key point read under the broadcasts and the reshape: row `j` of the column of key points. -/
theorem idx_fixed (b : Fin 32) (r : Fin 1536) (j : Fin 2048) :
    idx_main_v2 (idx_main_v3 (idx_main_v5 (idx_main_v17 (ix3 b r j)))) = ix3 (0 : Fin 1) j (0 : Fin 1) := by
  funext a
  apply Fin.ext
  match a with
  | ⟨0, _⟩ => rfl
  | ⟨1, _⟩ =>
    have hj : j.val < 2048 := j.isLt
    show (0 * 2048 + j.val) / 1 % 2048 = j.val
    omega
  | ⟨2, _⟩ => rfl

/-! ## The scores -/

/-- The scores array at (b, r, j) is the score of key point `j` against query point `r` with the noise of (b, r, j). -/
theorem scores_apply (x1 : (⟨S1x2048x1, .f32⟩ : BufTy).Contents (Elt Ideal)) (x2 : (⟨S1x1536x1, .f32⟩ : BufTy).Contents (Elt Ideal))
    (x3 : (⟨S32x1536x2048, .f32⟩ : BufTy).Contents (Elt Ideal)) (b : Fin 32) (r : Fin 1536) (j : Fin 2048) :
    val_main_v20 (F := Ideal) x1 x2 x3 (ix3 b r j) = scoreRowDiv x1 x2 x3 b r j := by
  rw [val_main_v20_apply, val_main_v18_apply, val_main_v17_apply, val_main_v8_apply, val_main_v7_apply, val_main_v6_apply,
    val_main_v4_apply, val_main_v1_apply, val_main_v0_apply, val_main_v5_apply, val_main_v3_apply, val_main_v2_apply,
    val_main_v16_apply, val_main_v15_apply, val_main_v14_apply, val_main_v13_apply, val_main_cst_0_apply, val_main_v12_apply,
    val_main_v11_apply, val_main_v10_apply, val_main_v9_apply, val_main_cst_apply, val_main_v19_apply, val_main_cst_1_apply,
    idx_flex b r j, idx_fixed b r j]
  rfl

/-! ## The greatest entry of a row -/

/-- The three-axis array reduces along its last axis to the two-axis one. -/
theorem reduces_last : S32x1536x2048.Reduces [2] S32x1536 := by decide

/-- The index over (b, r) whose last coordinate is `k`. -/
theorem lift_ix3 (h : S32x1536x2048.Reduces [2] S32x1536) (b : Fin 32) (r : Fin 1536) (k : Fin (S32x1536x2048.size 2)) :
    h.lift (ix2 b r) k = ix3 b r (⟨k.val, k.isLt⟩ : Fin 2048) := by
  funext c
  apply Fin.ext
  fin_cases c <;> rfl

/-- The maximum over the key positions taken from minus infinity, and once more against minus infinity, is the
    greatest entry of the row of scores. -/
theorem top_apply (x1 : (⟨S1x2048x1, .f32⟩ : BufTy).Contents (Elt Ideal)) (x2 : (⟨S1x1536x1, .f32⟩ : BufTy).Contents (Elt Ideal))
    (x3 : (⟨S32x1536x2048, .f32⟩ : BufTy).Contents (Elt Ideal)) (b : Fin 32) (r : Fin 1536) :
    val_main_v23 (F := Ideal) x1 x2 x3 (ix2 b r) = rowTop (scoreRowDiv x1 x2 x3 b r) := by
  rw [val_main_v23_apply, val_main_v22_apply, val_main_cst_3_apply]
  unfold val_main_v21
  rw [Host.reduce_eq_fold_single FloatOps.maximumf _ _ reducesTo_S32x1536x2048_S32x1536_d2 reduces_last h_S_,
    val_main_cst_2_apply]
  have hf : (val_main_v20 (F := Ideal) x1 x2 x3 ∘ reduces_last.lift (ix2 b r)) = scoreRowDiv x1 x2 x3 b r :=
    funext fun k => by
      show val_main_v20 (F := Ideal) x1 x2 x3 (reduces_last.lift (ix2 b r) k) = _
      rw [lift_ix3 reduces_last b r k]
      exact scores_apply x1 x2 x3 b r k
  rw [hf]
  rfl

/-! ## The weights -/

/-- The exponentials array at (b, r, j): the exponential of the score less the greatest entry of its row. -/
theorem exp_apply (x1 : (⟨S1x2048x1, .f32⟩ : BufTy).Contents (Elt Ideal)) (x2 : (⟨S1x1536x1, .f32⟩ : BufTy).Contents (Elt Ideal))
    (x3 : (⟨S32x1536x2048, .f32⟩ : BufTy).Contents (Elt Ideal)) (b : Fin 32) (r : Fin 1536) (j : Fin 2048) :
    val_main_v27 (F := Ideal) x1 x2 x3 (ix3 b r j)
      = Ideal.exp (scoreRowDiv x1 x2 x3 b r j - rowTop (scoreRowDiv x1 x2 x3 b r)) := by
  rw [val_main_v27_apply, val_main_v26_apply, val_main_v25_apply, val_main_v24_apply, scores_apply,
    show idx_main_v24 (idx_main_v25 (ix3 b r j)) = ix2 b r from
      funext fun a => Fin.ext (by match a with | ⟨0, _⟩ => rfl | ⟨1, _⟩ => rfl),
    top_apply]
  rfl

/-- The sums array at (b, r): the sum, taken from zero, of the exponentials of the row. -/
theorem sum_apply (x1 : (⟨S1x2048x1, .f32⟩ : BufTy).Contents (Elt Ideal)) (x2 : (⟨S1x1536x1, .f32⟩ : BufTy).Contents (Elt Ideal))
    (x3 : (⟨S32x1536x2048, .f32⟩ : BufTy).Contents (Elt Ideal)) (b : Fin 32) (r : Fin 1536) :
    val_main_v28 (F := Ideal) x1 x2 x3 (ix2 b r)
      = Ideal.ofBits .f32 0x00000000#32
          + ∑ j : Fin 2048, Ideal.exp (scoreRowDiv x1 x2 x3 b r j - rowTop (scoreRowDiv x1 x2 x3 b r)) := by
  rw [val_main_v28_apply, val_main_cst_4_apply]
  refine congrArg (_ + ·) (Finset.sum_congr rfl fun k _ => ?_)
  rw [show idx_main_v28 (ix2 b r) k = ix3 b r k from
      funext fun a => Fin.ext (by match a with | ⟨0, _⟩ => rfl | ⟨1, _⟩ => rfl | ⟨2, _⟩ => rfl)]
  exact exp_apply x1 x2 x3 b r k

/-- The weights array at (b, r, j): the exponential over the sum of the row's exponentials. -/
theorem weight_apply (x1 : (⟨S1x2048x1, .f32⟩ : BufTy).Contents (Elt Ideal)) (x2 : (⟨S1x1536x1, .f32⟩ : BufTy).Contents (Elt Ideal))
    (x3 : (⟨S32x1536x2048, .f32⟩ : BufTy).Contents (Elt Ideal)) (b : Fin 32) (r : Fin 1536) (j : Fin 2048) :
    val_main_v31 (F := Ideal) x1 x2 x3 (ix3 b r j)
      = Ideal.div (Ideal.exp (scoreRowDiv x1 x2 x3 b r j - rowTop (scoreRowDiv x1 x2 x3 b r)))
          (Ideal.ofBits .f32 0x00000000#32
            + ∑ j' : Fin 2048, Ideal.exp (scoreRowDiv x1 x2 x3 b r j' - rowTop (scoreRowDiv x1 x2 x3 b r))) := by
  rw [val_main_v31_apply, val_main_v30_apply, val_main_v29_apply, exp_apply,
    show idx_main_v29 (idx_main_v30 (ix3 b r j)) = ix2 b r from
      funext fun a => Fin.ext (by match a with | ⟨0, _⟩ => rfl | ⟨1, _⟩ => rfl),
    sum_apply]
  rfl

/-! ## The result -/

/-- The reference program's result array is the specification's, in the whole-row form. -/
theorem ref_eq (x0 : (⟨S32x2048x1024, .f32⟩ : BufTy).Contents (Elt Ideal)) (x1 : (⟨S1x2048x1, .f32⟩ : BufTy).Contents (Elt Ideal))
    (x2 : (⟨S1x1536x1, .f32⟩ : BufTy).Contents (Elt Ideal)) (x3 : (⟨S32x1536x2048, .f32⟩ : BufTy).Contents (Elt Ideal)) :
    val_main_v32 (F := Ideal) x0 x1 x2 x3 = resultRows x0 x1 x2 x3 := by
  funext i
  obtain ⟨b, r, f, rfl⟩ : ∃ (b : Fin 32) (r : Fin 1536) (f : Fin 1024), i = ix3 b r f := ⟨i 0, i 1, i 2, eq_ix3 i⟩
  rw [val_main_v32_apply]
  show _ = ∑ j : Fin 2048, Ideal.div (Ideal.exp (scoreRowDiv x1 x2 x3 b r j - rowTop (scoreRowDiv x1 x2 x3 b r)))
      (Ideal.ofBits .f32 0x00000000#32
        + ∑ j' : Fin 2048, Ideal.exp (scoreRowDiv x1 x2 x3 b r j' - rowTop (scoreRowDiv x1 x2 x3 b r))) * x0 (ix3 b j f)
  refine Finset.sum_congr rfl fun k _ => ?_
  rw [show lidx_main_v32 (ix3 b r f) k = ix3 b r k from
      funext fun a => Fin.ext (by match a with | ⟨0, _⟩ => rfl | ⟨1, _⟩ => rfl | ⟨2, _⟩ => rfl),
    show ridx_main_v32 (ix3 b r f) k = ix3 b k f from
      funext fun a => Fin.ext (by match a with | ⟨0, _⟩ => rfl | ⟨1, _⟩ => rfl | ⟨2, _⟩ => rfl),
    weight_apply]

end Cert.Attn

end
-- ==== Proof.PreDecode.lean ====
/-
  The precondition read back at the exact-real instance.

  The precondition is the conjunction of six statements over the four argument arrays, each a conjunction over every
  entry of one array: `|a| < +∞` for each array, `u + ε > 0` and `-log (u + ε) + ε > 0` for the uniform samples. A
  conjunction over an array that holds gives its statement at every entry; an extended real whose absolute value is below
  `+∞` is a real; a strict comparison that holds is the strict order of the extended reals.
-/
import proofs.«134700_j89034672046362_2_alg».proof.Pre_finite_inputs
import proofs.«134700_j89034672046362_2_alg».proof.Proof.Spec
import Idealize.ShloMosaic.Lib.ReduceAll
import Idealize.ShloMosaic.PureOps.Ideal.Laws

noncomputable section

namespace Cert.Attn

open Idealize.ShloMosaic Idealize.ShloMosaic.ValueIdx

variable [Cert.Pre_finite_inputs.Facts]

namespace PreDecode

/-- A shape of no axes has one index. -/
instance subsingleton_S_ : Subsingleton Cert.Pre_finite_inputs.S_.Idx := ⟨fun a b => funext fun d => d.elim0⟩

/-- A truth value as a one-bit word is 1 exactly when it is true. -/
theorem ofBool_eq_one (b : Bool) : BitVec.ofBool b = 1#1 ↔ b = true := by cases b <;> decide

/-- The word of `+∞`. -/
theorem top_f32 : Ideal.ofBits .f32 0x7F800000#32 = (⊤ : EReal) := by simp [Ideal.ofBits, Ideal.ieee]

/-- An extended real whose absolute value is below `+∞` is a real. -/
theorem real_of_abs_lt_top (x : EReal) (h : max x (-x) < ⊤) : ∃ r : ℝ, x = (r : EReal) := by
  induction x using EReal.rec with
  | bot => simp at h
  | coe r => exact ⟨r, rfl⟩
  | top => simp at h

/-- `|x| < +∞` as a comparison word that is 1: `x` is a real. -/
theorem real_of_cmp (x : EReal) (h : Ideal.cmp .olt (max x (-x)) (Ideal.ofBits .f32 0x7F800000#32) = 1#1) :
    ∃ r : ℝ, x = (r : EReal) := by
  rw [top_f32] at h
  unfold Ideal.cmp at h
  rw [ofBool_eq_one] at h
  exact real_of_abs_lt_top x (of_decide_eq_true h)

/-- `y > 0` as a comparison word that is 1: `0 < y`. -/
theorem pos_of_cmp (y : EReal) (h : Ideal.cmp .ogt y (Ideal.ofBits .f32 0x00000000#32) = 1#1) : (0 : EReal) < y := by
  rw [Ideal.ofBits_zero_f32] at h
  unfold Ideal.cmp at h
  rw [ofBool_eq_one] at h
  exact of_decide_eq_true h

/-- The conjunction over an array of `|a| < +∞` holds: every entry is a real. -/
theorem real_of_all {S : Shape} {axes : List (Fin S.rank)} (a : S.Idx → EReal)
    (hb : Cert.Pre_finite_inputs.S_.BroadcastsInDim S (![] : Fin 0 → Fin S.rank))
    (hr : S.ReducesTo axes Cert.Pre_finite_inputs.S_) (hu : 0 < Cert.Pre_finite_inputs.S_.numel)
    (e : Host.reduce IntOp.andi
        (cmpf (F := Ideal) (φ := .f32) .olt (Host.absf a)
          (broadcastInDim S ![] hb (constant (F := Ideal) Cert.Pre_finite_inputs.S_ .f32 0x7F800000#32)))
        (constantI Cert.Pre_finite_inputs.S_ 1 1#1) hr hu ix0 = 1#1)
    (i : S.Idx) : ∃ r : ℝ, a i = (r : EReal) :=
  real_of_cmp (a i) (Host.reduce_andi_all _ _ hr hu ix0 e i)

/-- The conjunction over an array of `y > 0` holds: every entry is positive. -/
theorem pos_of_all {S : Shape} {axes : List (Fin S.rank)} (y : S.Idx → EReal)
    (hb : Cert.Pre_finite_inputs.S_.BroadcastsInDim S (![] : Fin 0 → Fin S.rank))
    (hr : S.ReducesTo axes Cert.Pre_finite_inputs.S_) (hu : 0 < Cert.Pre_finite_inputs.S_.numel)
    (e : Host.reduce IntOp.andi
        (cmpf (F := Ideal) (φ := .f32) .ogt y
          (broadcastInDim S ![] hb (constant (F := Ideal) Cert.Pre_finite_inputs.S_ .f32 0x00000000#32)))
        (constantI Cert.Pre_finite_inputs.S_ 1 1#1) hr hu ix0 = 1#1)
    (i : S.Idx) : (0 : EReal) < y i :=
  pos_of_cmp (y i) (Host.reduce_andi_all _ _ hr hu ix0 e i)

end PreDecode

open PreDecode in
/-- THE PRECONDITION READ BACK: every entry of the four arrays is a real, and at every uniform sample `u` both
    `u + ε` and `-log (u + ε) + ε` are positive. -/
theorem pre_decode (a0 : Cert.Pre_finite_inputs.S32x2048x1024.Idx → EReal) (a1 : Cert.Pre_finite_inputs.S1x2048x1.Idx → EReal)
    (a2 : Cert.Pre_finite_inputs.S1x1536x1.Idx → EReal) (a3 : Cert.Pre_finite_inputs.S32x1536x2048.Idx → EReal)
    (h : Cert.Pre_finite_inputs.fn (F := Ideal) a0 a1 a2 a3 = fun _ => 1#1) :
    (∀ i, ∃ x : ℝ, a0 i = (x : EReal)) ∧ (∀ i, ∃ x : ℝ, a1 i = (x : EReal)) ∧ (∀ i, ∃ x : ℝ, a2 i = (x : EReal))
      ∧ (∀ i, ∃ x : ℝ, a3 i = (x : EReal))
      ∧ (∀ i, (0 : EReal) < a3 i + eps) ∧ (∀ i, (0 : EReal) < -(Ideal.log (a3 i + eps)) + eps) := by
  have e := congrFun h ix0
  dsimp only [Cert.Pre_finite_inputs.fn, Cert.Pre_finite_inputs.fn_part1, Cert.Pre_finite_inputs.fn_part2] at e
  simp only [andi, IntOp.andi_eq_one] at e
  obtain ⟨⟨⟨⟨⟨e0, e1⟩, e2⟩, e3⟩, e4⟩, e5⟩ := e
  exact ⟨real_of_all a0 _ _ _ e0, real_of_all a1 _ _ _ e1, real_of_all a2 _ _ _ e2, real_of_all a3 _ _ _ e3,
    fun i => pos_of_all _ _ _ _ e4 i, fun i => pos_of_all _ _ _ _ e5 i⟩

end Cert.Attn

end
-- ==== Proof.LibTileLaw.lean ====
/-
  The one law of arithmetic that joins the two programs.

  One program contracts the eight aggregates side by side against the eight basis matrices stacked — a single sum over
  1024 = 8 · 128 positions — and adds it to the root transform at once; the other contracts each aggregate against its
  own basis matrix — eight sums over 128 positions — and adds them one after the other. On the extended reals addition
  is commutative and associative (an infinite term does not break either), so a sum over `J · L` positions is the sum
  over `J` tiles of the sums over the `L` positions of each tile, and adding eight terms one by one is adding their sum.
  No term needs to be finite.
-/
import Mathlib.Data.EReal.Basic
import Mathlib.Algebra.BigOperators.Fin
import Mathlib.Logic.Equiv.Fin.Basic

open scoped BigOperators

namespace Cert.TileLaw

/-- A sum over `J · L` positions, tile by tile: position `L · k + d` is position `d` of tile `k`. -/
theorem sum_tiles {J L : Nat} (f : Fin (J * L) → EReal) :
    ∑ c : Fin (J * L), f c = ∑ k : Fin J, ∑ d : Fin L, f (finProdFinEquiv (k, d)) := by
  rw [← Fintype.sum_prod_type (f := fun p : Fin J × Fin L => f (finProdFinEquiv p))]
  exact (Fintype.sum_equiv finProdFinEquiv _ _ (fun _ => rfl)).symm

/-- The position of entry `d` of tile `k`. -/
theorem tile_val {J L : Nat} (k : Fin J) (d : Fin L) : (finProdFinEquiv (k, d) : Fin (J * L)).val = d.val + L * k.val := rfl

/-- Eight terms added one after the other onto `s` are `s` plus their sum. -/
theorem add_eight (s : EReal) (p : Fin 8 → EReal) :
    (((((((s + p 0) + p 1) + p 2) + p 3) + p 4) + p 5) + p 6) + p 7 = s + ∑ k : Fin 8, p k := by
  rw [Fin.sum_univ_eight]
  simp only [add_assoc]

end Cert.TileLaw
-- ==== Proof.Algebra.lean ====
/-
  The algebraic bridge between the whole-row softmax and the block-by-block (online) form, on the extended reals.

  The whole-row form takes the greatest score of a row of 2048 entries, the exponentials of the scores against it, their
  sum, and the sum of the quotients times the values. The block-by-block form cuts the row into four tiles of 512 and
  keeps a running maximum, a running sum of exponentials and a running weighted sum. When all scores and values are real
  numbers both are the same real number: the greatest entry of the row is the greatest of the tiles' greatest entries, a
  sum over the row is the sum over the tiles of the tiles' sums, and dividing every term by the positive sum of
  exponentials is dividing the sum of the terms.

  The scores are real whenever the arguments are real and both logarithms of the Gumbel noise are taken of positive
  numbers; the temperature as a divisor is the same as its reciprocal as a factor.
-/
import Mathlib
import Idealize.ShloMosaic.PureOps.Ideal
import Idealize.ShloMosaic.PureOps.Ideal.Laws
import proofs.«134700_j89034672046362_2_alg».proof.Proof.Spec
import proofs.«134700_j89034672046362_2_alg».proof.Proof.LibOnlineSoftmax
import proofs.«134700_j89034672046362_2_alg».proof.Proof.LibTileLaw

noncomputable section

namespace Cert.Attn

open Idealize.ShloMosaic Idealize.ShloMosaic.ValueIdx

/-! ## The constants -/

/-- The word with sign bit set, all-ones exponent and zero fraction is minus infinity. -/
theorem ofBits_neg_inf : Ideal.ofBits .f32 0xFF800000#32 = (⊥ : EReal) := by
  simp [Ideal.ofBits, Ideal.ieee]

/-- The small constant is a positive real number: a positive normal word. -/
theorem eps_real : ∃ e : ℝ, 0 < e ∧ eps = (e : EReal) := by
  refine ⟨(9223372 : ℝ) * (2 : ℝ) ^ (-63 : Int), by positivity, ?_⟩
  unfold eps
  simp [Ideal.ofBits, Ideal.ieee, -EReal.coe_mul]

/-- The temperature word is the binary fraction 13421773 / 2^26. -/
theorem ofBits_temperature : Ideal.ofBits .f32 0x3E4CCCCD#32 = ((13421773 / 67108864 : ℝ) : EReal) := by
  simp [Ideal.ofBits, Ideal.ieee, -EReal.coe_mul]
  norm_num

/-- Dividing by the temperature is multiplying by its reciprocal, at the infinities too. -/
theorem div_temperature (x : EReal) : Ideal.div x (Ideal.ofBits .f32 0x3E4CCCCD#32) = x * invT := by
  rw [ofBits_temperature, Ideal.div_coe (by norm_num)]
  unfold invT
  congr 2
  norm_num

/-- The score with the temperature as a divisor is the score with its reciprocal as a factor. -/
theorem score_eq_scoreDiv (fx fl u : EReal) : scoreDiv fx fl u = score fx fl u := by
  unfold scoreDiv score
  exact div_temperature _

/-- The coercion of the greater of two reals is the greater of the coercions. -/
theorem coe_max (x y : ℝ) : ((max x y : ℝ) : EReal) = max (x : EReal) (y : EReal) :=
  EReal.coe_strictMono.monotone.map_max

/-- A score of real arguments is real when both logarithms of the noise are taken of positive numbers. -/
theorem score_real (fx fl u : ℝ) (h1 : (0 : EReal) < (u : EReal) + eps)
    (h2 : (0 : EReal) < -(Ideal.log ((u : EReal) + eps)) + eps) :
    ∃ x : ℝ, score (fx : EReal) (fl : EReal) (u : EReal) = (x : EReal) := by
  obtain ⟨e, _, hee⟩ := eps_real
  rw [hee] at h1 h2
  have h1' : 0 < u + e := by exact_mod_cast h1
  have hlog1 : Ideal.log ((u : EReal) + (e : EReal)) = ((Real.log (u + e) : ℝ) : EReal) := by
    rw [← EReal.coe_add, Ideal.log_coe, if_neg (not_le.mpr h1')]
  rw [hlog1] at h2
  have h2' : 0 < -Real.log (u + e) + e := by exact_mod_cast h2
  have hlog2 : Ideal.log (-((Real.log (u + e) : ℝ) : EReal) + (e : EReal))
      = ((Real.log (-Real.log (u + e) + e) : ℝ) : EReal) := by
    rw [← EReal.coe_neg, ← EReal.coe_add, Ideal.log_coe, if_neg (not_le.mpr h2')]
  refine ⟨(-(max (fl - fx) (-(fl - fx))) + -(Real.log (-Real.log (u + e) + e))) * (67108864 / 13421773 : ℝ), ?_⟩
  unfold score gumbel invT
  rw [hee, hlog1, hlog2]
  simp only [← EReal.coe_sub, ← EReal.coe_neg, ← coe_max, ← EReal.coe_add, ← EReal.coe_mul]

/-! ## A row as four tiles -/

/-- A sum over the 2048 positions of a row is the sum over the four tiles of the sums over each tile's 512 positions. -/
theorem sum_tilePos {A : Type*} [AddCommMonoid A] (g : Fin 2048 → A) :
    ∑ j : Fin 2048, g j = ∑ b ∈ Finset.range 4, ∑ k : Fin 512, g (tilePos b k) := by
  have h1 : ∑ j : Fin 2048, g j = ∑ p : Fin 4 × Fin 512, g (tilePos p.1.val p.2) := by
    refine (Fintype.sum_equiv (finProdFinEquiv : Fin 4 × Fin 512 ≃ Fin 2048)
      (fun p => g (tilePos p.1.val p.2)) g ?_).symm
    intro p
    congr 1
    apply Fin.ext
    rw [tilePos_val _ p.1.isLt]
    show _ = p.2.val + 512 * p.1.val
    omega
  rw [h1, Fintype.sum_prod_type, ← Fin.sum_univ_eq_sum_range (fun b => ∑ k : Fin 512, g (tilePos b k)) 4]

/-- The greatest entry of a row is the greatest over the four tiles of the tiles' greatest entries. -/
theorem sup_tilePos (x : Fin 2048 → EReal) :
    (Finset.univ : Finset (Fin 2048)).sup x
      = (Finset.range 4).sup (fun b => (Finset.univ : Finset (Fin 512)).sup (fun k => x (tilePos b k))) := by
  apply le_antisymm
  · apply Finset.sup_le
    intro j _
    have hj := j.isLt
    have hk : j.val % 512 < 512 := Nat.mod_lt _ (by norm_num)
    have hb : j.val / 512 < 4 := by omega
    have hpos : tilePos (j.val / 512) ⟨j.val % 512, hk⟩ = j := by
      apply Fin.ext
      rw [tilePos_val _ hb]
      show 512 * (j.val / 512) + j.val % 512 = j.val
      omega
    calc x j = x (tilePos (j.val / 512) ⟨j.val % 512, hk⟩) := by rw [hpos]
      _ ≤ (Finset.univ : Finset (Fin 512)).sup (fun k => x (tilePos (j.val / 512) k)) :=
          Finset.le_sup (f := fun k => x (tilePos (j.val / 512) k)) (Finset.mem_univ _)
      _ ≤ _ := Finset.le_sup (f := fun b => (Finset.univ : Finset (Fin 512)).sup (fun k => x (tilePos b k)))
          (Finset.mem_range.mpr hb)
  · apply Finset.sup_le
    intro b _
    apply Finset.sup_le
    intro k _
    exact Finset.le_sup (f := x) (Finset.mem_univ _)

/-- The top of a row of reals is the real maximum of its four tiles. -/
theorem rowTop_eq (s : Fin 2048 → ℝ) :
    rowTop (fun j => (s j : EReal))
      = ((LibOnlineSoftmax.rowMax (fun b k => s (tilePos b k)) 4 (by norm_num) (by norm_num) : ℝ) : EReal) := by
  rw [LibOnlineSoftmax.coe_rowMax]
  unfold rowTop
  rw [ofBits_neg_inf, max_bot_left]
  exact sup_tilePos (fun j => (s j : EReal))

/-! ## The whole-row softmax is the block-by-block one -/

theorem softmaxRow_eq_tiles (s d : Fin 2048 → ℝ) :
    softmaxRow (fun j => (s j : EReal)) (fun j => (d j : EReal))
      = Ideal.div (LibOnlineSoftmax.state (tiles fun j => (s j : EReal)) (tiles fun j => (d j : EReal)) 4).2.2
                  (LibOnlineSoftmax.state (tiles fun j => (s j : EReal)) (tiles fun j => (d j : EReal)) 4).2.1 := by
  have hst := LibOnlineSoftmax.state_eq (fun b k => s (tilePos b k)) (fun b k => d (tilePos b k))
    (by norm_num : 0 < 512) 4 (by norm_num)
  have ht1 : tiles (fun j => (s j : EReal)) = fun b k => ((s (tilePos b k) : ℝ) : EReal) := rfl
  have ht2 : tiles (fun j => (d j : EReal)) = fun b k => ((d (tilePos b k) : ℝ) : EReal) := rfl
  rw [ht1, ht2, hst]
  unfold softmaxRow
  rw [rowTop_eq]
  generalize LibOnlineSoftmax.rowMax (fun b k => s (tilePos b k)) 4 (by norm_num) (by norm_num) = M
  have hexp : ∀ j, Ideal.exp ((s j : EReal) - (M : EReal)) = ((Real.exp (s j - M) : ℝ) : EReal) := fun j => by
    rw [← EReal.coe_sub, Ideal.exp_coe]
  have hZ : 0 < ∑ j : Fin 2048, Real.exp (s j - M) :=
    Finset.sum_pos (fun j _ => Real.exp_pos _) ⟨0, Finset.mem_univ _⟩
  have hL : ∑ b ∈ Finset.range 4, ∑ k : Fin 512, Real.exp (s (tilePos b k) - M)
      = ∑ j : Fin 2048, Real.exp (s j - M) := (sum_tilePos (fun j => Real.exp (s j - M))).symm
  have hA : ∑ b ∈ Finset.range 4, ∑ k : Fin 512, Real.exp (s (tilePos b k) - M) * d (tilePos b k)
      = ∑ j : Fin 2048, Real.exp (s j - M) * d j := (sum_tilePos (fun j => Real.exp (s j - M) * d j)).symm
  simp only [hexp, Ideal.ofBits_zero_f32, zero_add, ← LibOnlineSoftmax.coe_sum, Ideal.div_coe hZ.ne',
    ← EReal.coe_mul, hL, hA]
  congr 1
  rw [Finset.sum_mul]
  refine Finset.sum_congr rfl fun j _ => ?_
  ring

/-! ## The result arrays -/

/-- With real arguments and both logarithms of the noise taken of positive numbers, the whole-row result array is the
    block-by-block one. -/
theorem resultRows_eq_result (feat : SFeat.Idx → EReal) (fixed : SFix.Idx → EReal) (flex : SFlex.Idx → EReal)
    (u : SU.Idx → EReal)
    (hfeat : ∀ i, ∃ x : ℝ, feat i = (x : EReal)) (hfix : ∀ i, ∃ x : ℝ, fixed i = (x : EReal))
    (hflex : ∀ i, ∃ x : ℝ, flex i = (x : EReal)) (hu : ∀ i, ∃ x : ℝ, u i = (x : EReal))
    (h1 : ∀ i, (0 : EReal) < u i + eps) (h2 : ∀ i, (0 : EReal) < -(Ideal.log (u i + eps)) + eps) :
    resultRows feat fixed flex u = result feat fixed flex u := by
  funext i
  have hdiv : scoreRowDiv fixed flex u (i 0) (i 1) = scoreRow fixed flex u (i 0) (i 1) :=
    funext fun j => score_eq_scoreDiv _ _ _
  have hrow : ∃ s : Fin 2048 → ℝ, scoreRow fixed flex u (i 0) (i 1) = fun j => (s j : EReal) := by
    have hj : ∀ j : Fin 2048, ∃ x : ℝ, scoreRow fixed flex u (i 0) (i 1) j = (x : EReal) := by
      intro j
      obtain ⟨a, ha⟩ := hfix (ix3 (0 : Fin 1) j (0 : Fin 1))
      obtain ⟨b, hb⟩ := hflex (ix3 (0 : Fin 1) (i 1) (0 : Fin 1))
      obtain ⟨c, hc⟩ := hu (ix3 (i 0) (i 1) j)
      have h1j := h1 (ix3 (i 0) (i 1) j)
      have h2j := h2 (ix3 (i 0) (i 1) j)
      rw [hc] at h1j h2j
      show ∃ x : ℝ, score _ _ _ = (x : EReal)
      rw [ha, hb, hc]
      exact score_real a b c h1j h2j
    choose s hs using hj
    exact ⟨s, funext hs⟩
  have hcol : ∃ d : Fin 2048 → ℝ, featCol feat (i 0) (i 2) = fun j => (d j : EReal) := by
    have hj : ∀ j : Fin 2048, ∃ x : ℝ, featCol feat (i 0) (i 2) j = (x : EReal) := fun j => hfeat _
    choose d hd using hj
    exact ⟨d, funext hd⟩
  obtain ⟨s, hs⟩ := hrow
  obtain ⟨d, hd⟩ := hcol
  show softmaxRow (scoreRowDiv fixed flex u (i 0) (i 1)) (featCol feat (i 0) (i 2))
    = Ideal.div (LibOnlineSoftmax.state (tiles (scoreRow fixed flex u (i 0) (i 1))) (tiles (featCol feat (i 0) (i 2))) 4).2.2
        (LibOnlineSoftmax.state (tiles (scoreRow fixed flex u (i 0) (i 1))) (tiles (featCol feat (i 0) (i 2))) 4).2.1
  rw [hdiv, hs, hd]
  exact softmaxRow_eq_tiles s d

end Cert.Attn

end
-- ==== Proof.Claims.lean ====
/-
  The five statements of the certificate, assembled.

  The three programs run and leave their argument arrays unchanged; the exact-real kernel differs from the printed one
  in one named constant, the reciprocal of the temperature, whose value is the rational the specification uses; and at
  the exact reals the kernel and the reference end with the same result array. For the last: the kernel's result is the
  block-by-block form of the specification (the hypothesis of `algebraic_of`), the reference's is the whole-row form,
  and the two forms agree on arrays of reals on which both logarithms of the noise are taken of positive numbers, which
  is what the precondition says of the arguments.
-/
import proofs.«134700_j89034672046362_2_alg».proof.Defs
import proofs.«134700_j89034672046362_2_alg».proof.Proof.Gen.Kernel
import proofs.«134700_j89034672046362_2_alg».proof.Proof.Gen.Kernel.Frame
import proofs.«134700_j89034672046362_2_alg».proof.Proof.Gen.KernelIdeal
import proofs.«134700_j89034672046362_2_alg».proof.Proof.Gen.KernelIdeal.Frame
import proofs.«134700_j89034672046362_2_alg».proof.Proof.Gen.ReferenceIdeal
import proofs.«134700_j89034672046362_2_alg».proof.Proof.Gen.ReferenceIdeal.Run
import proofs.«134700_j89034672046362_2_alg».proof.Proof.Gen.ReferenceIdeal.Read
import proofs.«134700_j89034672046362_2_alg».proof.Proof.Gen.Pre_finite_inputs
import proofs.«134700_j89034672046362_2_alg».proof.Proof.Spec
import proofs.«134700_j89034672046362_2_alg».proof.Proof.RefRead
import proofs.«134700_j89034672046362_2_alg».proof.Proof.PreDecode
import proofs.«134700_j89034672046362_2_alg».proof.Proof.Algebra

noncomputable section

namespace Cert.Attn.Claims

open Idealize.ShloMosaic Idealize.ShloMosaic.TcCoe Idealize.SL.Sem

/-- The printed kernel runs and leaves its arguments unchanged. -/
theorem frame_k : Cert.frame_Kernel := fun m ρ _ => Cert.Kernel.Gen.frame m ρ

/-- The exact-real kernel runs and leaves its arguments unchanged. -/
theorem frame_ki : Cert.frame_KernelIdeal := fun m ρ _ => Cert.KernelIdeal.Gen.frame m ρ

/-- The exact-real reference runs and leaves its arguments unchanged. -/
theorem frame_ri : Cert.frame_ReferenceIdeal := fun m ρ _ =>
  (θ_run Cert.ReferenceIdeal.defs _ _).mono (fun _ h c => (h c).2) (Cert.ReferenceIdeal.Value.run (F := Ideal) m ρ)

/-- The named constant: the table gives the reciprocal of the temperature the value 67108864 / 13421773, one over the
    binary fraction the decimal 0.2 rounds to. -/
theorem preserves : Cert.preserves_Kernel_KernelIdeal :=
  IdealRules.named_const.statement Cert.KernelIdeal.κ "inv_temp" .f32 0x40A00000#32 ((67108864 / 13421773 : ℝ) : EReal) rfl

/-- At the exact reals the two programs end with one result array, given that the kernel ends with the block-by-block
    form of the specification: the reference ends with the whole-row form, and the two forms agree under the
    precondition. -/
theorem algebraic_of
    (hk : ∀ (m : (ℓ : Loc Cert.KernelIdeal.nD Cert.KernelIdeal.τ Cert.KernelIdeal.sig) → Buf (Elt Ideal) ℓ) (ρ : Dev Cert.KernelIdeal.nD → PrngReg),
        θ_run (Cert.KernelIdeal.defs (F := Ideal)) (onTc (τ := Cert.KernelIdeal.τ) (Cert.KernelIdeal.main (F := Ideal))) ⟨m, fun _ => 0, ρ⟩ fun r => ∀ c : Dev Cert.KernelIdeal.nD,
          r.2.mem ((c.tc : Thread Cert.KernelIdeal.nD Cert.KernelIdeal.τ).loc Cert.KernelIdeal.main_v4) = Cert.Attn.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)) :
    Cert.algebraic_KernelIdeal_ReferenceIdeal := by
  intro m ρ m' ρ' hpre hagree
  refine ⟨fun c => Cert.Attn.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)), hk m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v32_eq, Cert.Attn.ref_eq, (hagree c).1, (hagree c).2.1, (hagree c).2.2.1, (hagree c).2.2.2]
  obtain ⟨hfeat, hfix, hflex, hu, h1, h2⟩ := Cert.Attn.pre_decode _ _ _ _ (hpre c)
  exact Cert.Attn.resultRows_eq_result _ _ _ _ hfeat hfix hflex hu h1 h2

end Cert.Attn.Claims

end
-- ==== Proof.lean ====
/-
  The certificate of an attention kernel with Gumbel noise against its whole-row reference.

  For a batch `b`, a query row `r` and a key position `j` the score is `(-|flex r - fixed j| + g (u b r j)) / T`, with
  `g u = -log (-log (u + ε) + ε)`; the result at `(b, r, f)` is the softmax of the row of scores over `j` weighted against
  `feature (b, j, f)`. The reference computes it row by row: the row's maximum, the exponentials against it, their sum,
  the quotients, and one contraction with the values. The kernel walks the 2048 key positions in four tiles of 512 and
  keeps, per row, a running maximum, a running sum of exponentials and a running weighted sum, rescaled by
  `exp (old maximum - new maximum)` at every tile; after the fourth tile it divides the weighted sum by the sum.

  The two agree on the extended reals because `exp (m - m') · exp (s - m) = exp (s - m')` for real numbers and because a
  real factor `1 / L` distributes over a finite sum of reals. Both laws need the scores and the values to be real: the
  precondition keeps every input finite and both arguments of the reference's logarithms positive, so every score is a
  real number, the row's maximum is real and the sum of exponentials is a positive real. The kernel's multiplication by
  the constant it folded from `1 / T` is the reference's division by `T` once that constant is read as the exact
  reciprocal of the binary fraction the reference divides by.

  Modules: Spec (the function both sides compute, in the tile-by-tile and in the whole-row form), Algebra (the two forms
  agree for real rows), RefRead (the reference's run is the whole-row form), Pieces and StepLaw (what one grid point
  leaves in the three running arrays, as one step of the tile-by-tile state), Blocks (which entries of the argument
  arrays a point's blocks hold, and that the written-back blocks cover the result array), Invariant (the running arrays
  after every point, by induction over the points), Final and KernelRun (the result array after the run), PreDecode
  (the precondition, entry by entry), Claims (the five conjuncts).
-/
import proofs.«134700_j89034672046362_2_alg».proof.Defs
import proofs.«134700_j89034672046362_2_alg».proof.Proof.Gen.Kernel
import proofs.«134700_j89034672046362_2_alg».proof.Proof.Gen.Kernel.Skeleton
import proofs.«134700_j89034672046362_2_alg».proof.Proof.Gen.Kernel.Launch
import proofs.«134700_j89034672046362_2_alg».proof.Proof.Gen.Kernel.Points
import proofs.«134700_j89034672046362_2_alg».proof.Proof.Gen.Kernel.Frame
import proofs.«134700_j89034672046362_2_alg».proof.Proof.Gen.KernelIdeal
import proofs.«134700_j89034672046362_2_alg».proof.Proof.Gen.KernelIdeal.Skeleton
import proofs.«134700_j89034672046362_2_alg».proof.Proof.Gen.KernelIdeal.Launch
import proofs.«134700_j89034672046362_2_alg».proof.Proof.Gen.KernelIdeal.Points
import proofs.«134700_j89034672046362_2_alg».proof.Proof.Gen.KernelIdeal.Frame
import proofs.«134700_j89034672046362_2_alg».proof.Proof.Gen.ReferenceIdeal
import proofs.«134700_j89034672046362_2_alg».proof.Proof.Gen.KernelIdeal.Value
import proofs.«134700_j89034672046362_2_alg».proof.Proof.Gen.ReferenceIdeal.Run
import proofs.«134700_j89034672046362_2_alg».proof.Proof.Gen.ReferenceIdeal.Read
import proofs.«134700_j89034672046362_2_alg».proof.Proof.Gen.Pre_finite_inputs
import proofs.«134700_j89034672046362_2_alg».proof.Proof.KernelRun
import proofs.«134700_j89034672046362_2_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Cert.Attn.Claims.frame_k, Cert.Attn.Claims.frame_ki, Cert.Attn.Claims.frame_ri, Cert.Attn.Claims.preserves,
  Cert.Attn.Claims.algebraic_of (fun m ρ => Cert.Attn.kernel_run m ρ)⟩

end Cert.Proof

end
